-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x512 .f32) (main_arg1 : IVec S2x262144 32) (main_arg2 : FVec F S512x256 .f32) (main_arg3 : FVec F S256 .f32) (main_arg4 : FVec F S256x128 .f32) (main_arg5 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x256 : Shape := ⟨2, ![8192, 256]⟩
abbrev S1024x512 : Shape := ⟨2, ![1024, 512]⟩
abbrev S1024x256 : Shape := ⟨2, ![1024, 256]⟩
abbrev S270336x256 : Shape := ⟨2, ![270336, 256]⟩
abbrev S1x256 : Shape := ⟨2, ![1, 256]⟩
abbrev S8192x128 : Shape := ⟨2, ![8192, 128]⟩
abbrev S1024x128 : Shape := ⟨2, ![1024, 128]⟩
abbrev S270336x128 : Shape := ⟨2, ![270336, 128]⟩
abbrev S1x128 : Shape := ⟨2, ![1, 128]⟩
abbrev S8192x8192 : Shape := ⟨2, ![8192, 8192]⟩
abbrev S1024x1024 : Shape := ⟨2, ![1024, 1024]⟩

abbrev nBuf : Space → Nat
  | .hbm => 93
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S8192, .i32⟩
  | .hbm, ⟨7, _⟩ => ⟨S1x262144, .i32⟩
  | .hbm, ⟨8, _⟩ => ⟨S262144, .i32⟩
  | .hbm, ⟨9, _⟩ => ⟨S270336, .i32⟩
  | .hbm, ⟨10, _⟩ => ⟨S1x262144, .i32⟩
  | .hbm, ⟨11, _⟩ => ⟨S262144, .i32⟩
  | .hbm, ⟨12, _⟩ => ⟨S270336, .i32⟩
  | .hbm, ⟨13, _⟩ => ⟨S_, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .i32⟩
  | .hbm, ⟨31, _⟩ => ⟨S270336, .i32⟩
  | .hbm, ⟨32, _⟩ => ⟨S270336, .i1⟩
  | .hbm, ⟨33, _⟩ => ⟨S_, .i32⟩
  | .hbm, ⟨34, _⟩ => ⟨S270336, .i32⟩
  | .hbm, ⟨35, _⟩ => ⟨S270336, .i32⟩
  | .hbm, ⟨36, _⟩ => ⟨S270336, .i32⟩
  | .hbm, ⟨37, _⟩ => ⟨S270336x1, .i32⟩
  | .hbm, ⟨38, _⟩ => ⟨S270336, .f32⟩
  | .hbm, ⟨39, _⟩ => ⟨S_, .i32⟩
  | .hbm, ⟨40, _⟩ => ⟨S270336, .i32⟩
  | .hbm, ⟨41, _⟩ => ⟨S270336, .i1⟩
  | .hbm, ⟨42, _⟩ => ⟨S_, .i32⟩
  | .hbm, ⟨43, _⟩ => ⟨S270336, .i32⟩
  | .hbm, ⟨44, _⟩ => ⟨S270336, .i32⟩
  | .hbm, ⟨45, _⟩ => ⟨S270336, .i32⟩
  | .hbm, ⟨46, _⟩ => ⟨S270336x1, .i32⟩
  | .hbm, ⟨47, _⟩ => ⟨S270336, .f32⟩
  | .hbm, ⟨48, _⟩ => ⟨S270336, .f32⟩
  | .hbm, ⟨49, _⟩ => ⟨S8192x256, .f32⟩
  | .hbm, ⟨50, _⟩ => ⟨S_, .i32⟩
  | .hbm, ⟨51, _⟩ => ⟨S270336, .i32⟩
  | .hbm, ⟨52, _⟩ => ⟨S270336, .i1⟩
  | .hbm, ⟨53, _⟩ => ⟨S_, .i32⟩
  | .hbm, ⟨54, _⟩ => ⟨S270336, .i32⟩
  | .hbm, ⟨55, _⟩ => ⟨S270336, .i32⟩
  | .hbm, ⟨56, _⟩ => ⟨S270336, .i32⟩
  | .hbm, ⟨57, _⟩ => ⟨S270336x1, .i32⟩
  | .hbm, ⟨58, _⟩ => ⟨S270336x256, .f32⟩
  | .hbm, ⟨59, _⟩ => ⟨S270336x1, .f32⟩
  | .hbm, ⟨60, _⟩ => ⟨S270336x256, .f32⟩
  | .hbm, ⟨61, _⟩ => ⟨S270336x256, .f32⟩
  | .hbm, ⟨62, _⟩ => ⟨S_, .f32⟩
  | .hbm, ⟨63, _⟩ => ⟨S8192x256, .f32⟩
  | .hbm, ⟨64, _⟩ => ⟨S270336x1, .i32⟩
  | .hbm, ⟨65, _⟩ => ⟨S8192x256, .f32⟩
  | .hbm, ⟨66, _⟩ => ⟨S1x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S8192x256, .f32⟩
  | .hbm, ⟨71, _⟩ => ⟨S8192x256, .f32⟩
  | .hbm, ⟨72, _⟩ => ⟨S8192x128, .f32⟩
  | .hbm, ⟨73, _⟩ => ⟨S_, .i32⟩
  | .hbm, ⟨74, _⟩ => ⟨S270336, .i32⟩
  | .hbm, ⟨75, _⟩ => ⟨S270336, .i1⟩
  | .hbm, ⟨76, _⟩ => ⟨S_, .i32⟩
  | .hbm, ⟨77, _⟩ => ⟨S270336, .i32⟩
  | .hbm, ⟨78, _⟩ => ⟨S270336, .i32⟩
  | .hbm, ⟨79, _⟩ => ⟨S270336, .i32⟩
  | .hbm, ⟨80, _⟩ => ⟨S270336x1, .i32⟩
  | .hbm, ⟨81, _⟩ => ⟨S270336x128, .f32⟩
  | .hbm, ⟨82, _⟩ => ⟨S270336x1, .f32⟩
  | .hbm, ⟨83, _⟩ => ⟨S270336x128, .f32⟩
  | .hbm, ⟨84, _⟩ => ⟨S270336x128, .f32⟩
  | .hbm, ⟨85, _⟩ => ⟨S_, .f32⟩
  | .hbm, ⟨86, _⟩ => ⟨S8192x128, .f32⟩
  | .hbm, ⟨87, _⟩ => ⟨S270336x1, .i32⟩
  | .hbm, ⟨88, _⟩ => ⟨S8192x128, .f32⟩
  | .hbm, ⟨89, _⟩ => ⟨S1x128, .f32⟩
  | .hbm, ⟨90, _⟩ => ⟨S8192x128, .f32⟩
  | .hbm, ⟨91, _⟩ => ⟨S8192x128, .f32⟩
  | .hbm, ⟨92, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S1024x512_S512x256_S1024x256_1_0_0_1_n_n_wf : DotDims.WF S1024x512 S512x256 S1024x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S1024x256_S256x128_S1024x128_1_0_0_1_n_n_wf : DotDims.WF S1024x256 S256x128 S1024x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S8192x256 : Shape := ⟨2, ![8192, 256]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S8192x128 : Shape := ⟨2, ![8192, 128]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 138
  | .vmem => 0
  | .smem => 0
  | _ => 0

abbrev hbmTy0_0 (i : Nat) : BufTy := match i % 128 with
  | 0 => ⟨S8192x512, .f32⟩
  | 1 => ⟨S2x262144, .i32⟩
  | 2 => ⟨S512x256, .f32⟩
  | 3 => ⟨S256, .f32⟩
  | 4 => ⟨S256x128, .f32⟩
  | 5 => ⟨S128, .f32⟩
  | 6 => ⟨S8192, .i32⟩
  | 7 => ⟨S1x262144, .i32⟩
  | 8 => ⟨S262144, .i32⟩
  | 9 => ⟨S270336, .i32⟩
  | 10 => ⟨S1x262144, .i32⟩
  | 11 => ⟨S262144, .i32⟩
  | 12 => ⟨S270336, .i32⟩
  | 13 => ⟨S8192x256, .f32⟩
  | 14 => ⟨S_, .f32⟩
  | 15 => ⟨S270336, .f32⟩
  | 16 => ⟨S_, .f32⟩
  | 17 => ⟨S8192, .f32⟩
  | 18 => ⟨S270336x1, .i32⟩
  | 19 => ⟨S8192, .f32⟩
  | 20 => ⟨S_, .f32⟩
  | 21 => ⟨S8192, .f32⟩
  | 22 => ⟨S8192, .i1⟩
  | 23 => ⟨S_, .f32⟩
  | 24 => ⟨S8192, .f32⟩
  | 25 => ⟨S8192, .f32⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S_, .i32⟩
  | 51 => ⟨S270336, .i32⟩
  | 52 => ⟨S270336, .i1⟩
  | 53 => ⟨S_, .i32⟩
  | 54 => ⟨S270336, .i32⟩
  | 55 => ⟨S270336, .i32⟩
  | 56 => ⟨S270336, .i32⟩
  | 57 => ⟨S270336x1, .i32⟩
  | 58 => ⟨S270336x256, .f32⟩
  | 59 => ⟨S270336x1, .f32⟩
  | 60 => ⟨S270336x256, .f32⟩
  | 61 => ⟨S270336x256, .f32⟩
  | 62 => ⟨S_, .f32⟩
  | 63 => ⟨S8192x256, .f32⟩
  | 64 => ⟨S270336x1, .i32⟩
  | 65 => ⟨S8192x256, .f32⟩
  | 66 => ⟨S1x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x128, .f32⟩
  | 73 => ⟨S_, .f32⟩
  | 74 => ⟨S270336, .f32⟩
  | 75 => ⟨S_, .f32⟩
  | 76 => ⟨S8192, .f32⟩
  | 77 => ⟨S270336x1, .i32⟩
  | 78 => ⟨S8192, .f32⟩
  | 79 => ⟨S_, .f32⟩
  | 80 => ⟨S8192, .f32⟩
  | 81 => ⟨S8192, .i1⟩
  | 82 => ⟨S_, .f32⟩
  | 83 => ⟨S8192, .f32⟩
  | 84 => ⟨S8192, .f32⟩
  | 85 => ⟨S8192, .f32⟩
  | 86 => ⟨S_, .f32⟩
  | 87 => ⟨S_, .f32⟩
  | 88 => ⟨S8192, .f32⟩
  | 89 => ⟨S8192, .f32⟩
  | 90 => ⟨S_, .i32⟩
  | 91 => ⟨S270336, .i32⟩
  | 92 => ⟨S270336, .i1⟩
  | 93 => ⟨S_, .i32⟩
  | 94 => ⟨S270336, .i32⟩
  | 95 => ⟨S270336, .i32⟩
  | 96 => ⟨S270336, .i32⟩
  | 97 => ⟨S270336x1, .i32⟩
  | 98 => ⟨S270336, .f32⟩
  | 99 => ⟨S_, .i32⟩
  | 100 => ⟨S270336, .i32⟩
  | 101 => ⟨S270336, .i1⟩
  | 102 => ⟨S_, .i32⟩
  | 103 => ⟨S270336, .i32⟩
  | 104 => ⟨S270336, .i32⟩
  | 105 => ⟨S270336, .i32⟩
  | 106 => ⟨S270336x1, .i32⟩
  | 107 => ⟨S270336, .f32⟩
  | 108 => ⟨S270336, .f32⟩
  | 109 => ⟨S_, .i32⟩
  | 110 => ⟨S270336, .i32⟩
  | 111 => ⟨S270336, .i1⟩
  | 112 => ⟨S_, .i32⟩
  | 113 => ⟨S270336, .i32⟩
  | 114 => ⟨S270336, .i32⟩
  | 115 => ⟨S270336, .i32⟩
  | 116 => ⟨S270336x1, .i32⟩
  | 117 => ⟨S270336x128, .f32⟩
  | 118 => ⟨S270336x1, .f32⟩
  | 119 => ⟨S270336x128, .f32⟩
  | 120 => ⟨S270336x128, .f32⟩
  | 121 => ⟨S_, .f32⟩
  | 122 => ⟨S8192x128, .f32⟩
  | 123 => ⟨S270336x1, .i32⟩
  | 124 => ⟨S8192x128, .f32⟩
  | 125 => ⟨S1x128, .f32⟩
  | 126 => ⟨S8192x128, .f32⟩
  | 127 => ⟨S8192x128, .f32⟩
  | _ => ⟨S8192x512, .f32⟩

abbrev hbmTy0_1 (i : Nat) : BufTy := match i % 128 with
  | 0 => ⟨S128x8192, .f32⟩
  | 1 => ⟨S8192x8192, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S_, .f32⟩
  | 8 => ⟨S8192x8192, .f32⟩
  | 9 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_22 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x128_S8192x128_1_0_0_1_n_n_wf : DotDims.WF S8192x256 S256x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Layer1.lean ====
/-
  Region 0 of the program: the first dense layer's product x·W1, computed by a grid of 8 points, point t
  holding rows 1024·t … 1024·t+1023 of x, all of W1, and writing the same rows of the product.
  Stated at a parameter V, the contents of the core's buffers when the region is entered:
  * rowsOf V c w t — the block of window w's array that point t stages;
  * tileOut — what one run of the body leaves in the output's staging buffer, as a function of the two input
    blocks: the body's one store, whose payload is the skeleton's product term;
  * body_runs — the body's triple: inputs kept, output buffer at tileOut of them;
  * rdat — the pipeline's proof data over V, and duty — the library's body obligation for it.
-/
import proofs.«106708_j53764400611652_1_alg».proof.Proof.Gen.Kernel.Launch
import proofs.«106708_j53764400611652_1_alg».proof.Proof.Gen.Kernel.Skeleton
import proofs.«106708_j53764400611652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, whether the block was fetched at this
    point or has stayed since an earlier one (the windows are whole and never idle): the rows of x, -/
theorem found_x {c : Dev nD} (dat : Dat τ (Elt F) Unit ℕ (UR sig nD τ) ℕ cfg0 c) (hA : dat.A 0 = V c (Pipeline.arrRef spec0 0))
    (hafter : ∀ t, dat.after 0 t = rowsOf V c 0 t) (t : Fin cfg0.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and the weights, fetched once. -/
theorem found_w {c : Dev nD} (dat : Dat τ (Elt F) Unit ℕ (UR sig nD τ) ℕ cfg0 c) (hA : dat.A 1 = V c (Pipeline.arrRef spec0 1))
    (hafter : ∀ t, dat.after 1 t = rowsOf V c 1 t) (t : Fin cfg0.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x512 := Rect.unit (s := S1024x512) ![0, 0] S1024x512.size inb_S1024x512_S1024x512_0_0
abbrev boxW : Rect S512x256 := Rect.unit (s := S512x256) ![0, 0] S512x256.size inb_S512x256_S512x256_0_0
abbrev boxO : Rect S1024x256 := Rect.unit (s := S1024x256) ![0, 0] S1024x256.size inb_S1024x256_S1024x256_0_0

/-- What the body leaves in the output's staging buffer: its one store, of the product of the two loaded blocks. -/
def tileOut (x0 : Vec F S1024x512 .f32) (x1 : Vec F S512x256 .f32) : Vec F S1024x256 .f32 :=
  View.canon [⟨boxO, k0_pay1 (View.ld x0 boxX) (View.ld x1 boxW)⟩]

/-- The one store covers the buffer. -/
theorem tile_covers (p0 : Vec F S1024x256 .f32) (y : S1024x256.Idx) :
    ∃ pc ∈ ([⟨boxO, p0⟩] : List (View.Piece (Elt F) S1024x256 .f32)), y ∈ pc.1.set :=
  View.cover_of_tiled [⟨boxO, p0⟩] S1024x256.size (by rfl) y

set_option maxHeartbeats 1000000 in
/-- The body on whole staging buffers: it reads both inputs and the output buffer, stores the product, and returns with
    the inputs as found and the output at `tileOut` of them. -/
theorem body_runs (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; full shares. -/
def rdat (c : Dev nD) : Dat τ (Elt F) Unit ℕ (UR sig nD τ) ℕ cfg0 c where
  A w := V c (Pipeline.arrRef spec0 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec0 c
  q _ := fullShare
  owed _ := 0

theorem rdat_A (c : Dev nD) (w : Fin cfg0.W) : (rdat V c).A w = V c (Pipeline.arrRef spec0 w) := by
  dsimp only [rdat]
theorem rdat_after_x (c : Dev nD) (t : Fin cfg0.N) : (rdat V c).after 0 t = rowsOf V c 0 t := by dsimp only [rdat]
theorem rdat_after_w (c : Dev nD) (t : Fin cfg0.N) : (rdat V c).after 1 t = rowsOf V c 1 t := by dsimp only [rdat]
theorem rdat_after_o (c : Dev nD) (t : Fin cfg0.N) : (rdat V c).after 2 t = tileOut (rowsOf V c 0 t) (rowsOf V c 1 t) := by
  dsimp only [rdat]
theorem rdat_before_x (c : Dev nD) (t : Fin cfg0.N) (d) : (rdat V c).before 0 t d = rowsOf V c 0 t :=
  found_x V (rdat V c) (rdat_A V c 0) (rdat_after_x V c) t d
theorem rdat_before_w (c : Dev nD) (t : Fin cfg0.N) (d) : (rdat V c).before 1 t d = rowsOf V c 1 t :=
  found_w V (rdat V c) (rdat_A V c 1) (rdat_after_w V c) t d

/-- What the body is called with at point `t`, the windows one by one, -/
def atCall (c : Dev nD) (t : Fin cfg0.N) : sProp 𝕄 :=
  iprop((rdat V c).Φ t.castSucc ∗ (rdat V c).owesAt () t.castSucc
    ∗ (∃ d, owns (c : Thread nD τ) (st0_0 t) fullShare ((rdat V c).before 0 t d))
    ∗ (∃ d, owns (c : Thread nD τ) (st0_1 t) fullShare ((rdat V c).before 1 t d))
    ∗ (∃ d, owns (c : Thread nD τ) (st0_2 t) fullShare ((rdat V c).before 2 t d)))

/-- and what it returns. -/
def atReturn (c : Dev nD) (t : Fin cfg0.N) : sProp 𝕄 :=
  iprop((rdat V c).Φ t.succ ∗ (rdat V c).owesAt () t.succ
    ∗ owns (c : Thread nD τ) (st0_0 t) fullShare ((rdat V c).after 0 t)
    ∗ owns (c : Thread nD τ) (st0_1 t) fullShare ((rdat V c).after 1 t)
    ∗ owns (c : Thread nD τ) (st0_2 t) fullShare ((rdat V c).after 2 t))

/-- The body at any point: the inputs' buffers hold their blocks, so `body_runs` applies; the invariant and what the core
    owes pass through unread. -/
theorem body_at_point (c : Dev nD) (t : Fin cfg0.N) :
    atCall V c t ⊢ wp frame (wpE (defs₀ (F := F)) Variants.none c none) Set.univ (bodyAt0 t) (fun _ => atReturn V c t) := by
  unfold atCall atReturn bodyAt0
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W0, bigSep_W0]
  exact body_at_point V c t

end Cert.Kernel.Layer1

end
-- ==== Proof.KB.Layer2.lean ====
/-
  Region 1 of the program: the second dense layer's product h·W2, by a grid of 8 points, point t holding rows
  1024·t … 1024·t+1023 of h, all of W2, and writing the same rows of the product. The same development as for the first
  layer's product, at this layer's shapes: rowsOf, tileOut, body_runs, rdat, duty.
-/
import proofs.«106708_j53764400611652_1_alg».proof.Proof.Gen.Kernel.Launch
import proofs.«106708_j53764400611652_1_alg».proof.Proof.Gen.Kernel.Skeleton
import proofs.«106708_j53764400611652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, whether the block was fetched at this
    point or has stayed since an earlier one (the windows are whole and never idle): the rows of x, -/
theorem found_x {c : Dev nD} (dat : Dat τ (Elt F) Unit ℕ (UR sig nD τ) ℕ cfg1 c) (hA : dat.A 0 = V c (Pipeline.arrRef spec1 0))
    (hafter : ∀ t, dat.after 0 t = rowsOf V c 0 t) (t : Fin cfg1.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and the weights, fetched once. -/
theorem found_w {c : Dev nD} (dat : Dat τ (Elt F) Unit ℕ (UR sig nD τ) ℕ cfg1 c) (hA : dat.A 1 = V c (Pipeline.arrRef spec1 1))
    (hafter : ∀ t, dat.after 1 t = rowsOf V c 1 t) (t : Fin cfg1.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x256 := Rect.unit (s := S1024x256) ![0, 0] S1024x256.size inb_S1024x256_S1024x256_0_0
abbrev boxW : Rect S256x128 := Rect.unit (s := S256x128) ![0, 0] S256x128.size inb_S256x128_S256x128_0_0
abbrev boxO : Rect S1024x128 := Rect.unit (s := S1024x128) ![0, 0] S1024x128.size inb_S1024x128_S1024x128_0_0

/-- What the body leaves in the output's staging buffer: its one store, of the product of the two loaded blocks. -/
def tileOut (x0 : Vec F S1024x256 .f32) (x1 : Vec F S256x128 .f32) : Vec F S1024x128 .f32 :=
  View.canon [⟨boxO, k1_pay1 (View.ld x0 boxX) (View.ld x1 boxW)⟩]

/-- The one store covers the buffer. -/
theorem tile_covers (p0 : Vec F S1024x128 .f32) (y : S1024x128.Idx) :
    ∃ pc ∈ ([⟨boxO, p0⟩] : List (View.Piece (Elt F) S1024x128 .f32)), y ∈ pc.1.set :=
  View.cover_of_tiled [⟨boxO, p0⟩] S1024x128.size (by rfl) y

set_option maxHeartbeats 1000000 in
/-- The body on whole staging buffers: it reads both inputs and the output buffer, stores the product, and returns with
    the inputs as found and the output at `tileOut` of them. -/
theorem body_runs (c : Dev nD) (E : Set ℕ) (i : grid1.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileOut x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; full shares. -/
def rdat (c : Dev nD) : Dat τ (Elt F) Unit ℕ (UR sig nD τ) ℕ cfg1 c where
  A w := V c (Pipeline.arrRef spec1 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec1 c
  q _ := fullShare
  owed _ := 0

theorem rdat_A (c : Dev nD) (w : Fin cfg1.W) : (rdat V c).A w = V c (Pipeline.arrRef spec1 w) := by
  dsimp only [rdat]
theorem rdat_after_x (c : Dev nD) (t : Fin cfg1.N) : (rdat V c).after 0 t = rowsOf V c 0 t := by dsimp only [rdat]
theorem rdat_after_w (c : Dev nD) (t : Fin cfg1.N) : (rdat V c).after 1 t = rowsOf V c 1 t := by dsimp only [rdat]
theorem rdat_after_o (c : Dev nD) (t : Fin cfg1.N) : (rdat V c).after 2 t = tileOut (rowsOf V c 0 t) (rowsOf V c 1 t) := by
  dsimp only [rdat]
theorem rdat_before_x (c : Dev nD) (t : Fin cfg1.N) (d) : (rdat V c).before 0 t d = rowsOf V c 0 t :=
  found_x V (rdat V c) (rdat_A V c 0) (rdat_after_x V c) t d
theorem rdat_before_w (c : Dev nD) (t : Fin cfg1.N) (d) : (rdat V c).before 1 t d = rowsOf V c 1 t :=
  found_w V (rdat V c) (rdat_A V c 1) (rdat_after_w V c) t d

/-- What the body is called with at point `t`, the windows one by one, -/
def atCall (c : Dev nD) (t : Fin cfg1.N) : sProp 𝕄 :=
  iprop((rdat V c).Φ t.castSucc ∗ (rdat V c).owesAt () t.castSucc
    ∗ (∃ d, owns (c : Thread nD τ) (st1_0 t) fullShare ((rdat V c).before 0 t d))
    ∗ (∃ d, owns (c : Thread nD τ) (st1_1 t) fullShare ((rdat V c).before 1 t d))
    ∗ (∃ d, owns (c : Thread nD τ) (st1_2 t) fullShare ((rdat V c).before 2 t d)))

/-- and what it returns. -/
def atReturn (c : Dev nD) (t : Fin cfg1.N) : sProp 𝕄 :=
  iprop((rdat V c).Φ t.succ ∗ (rdat V c).owesAt () t.succ
    ∗ owns (c : Thread nD τ) (st1_0 t) fullShare ((rdat V c).after 0 t)
    ∗ owns (c : Thread nD τ) (st1_1 t) fullShare ((rdat V c).after 1 t)
    ∗ owns (c : Thread nD τ) (st1_2 t) fullShare ((rdat V c).after 2 t))

/-- The body at any point: the inputs' buffers hold their blocks, so `body_runs` applies; the invariant and what the core
    owes pass through unread. -/
theorem body_at_point (c : Dev nD) (t : Fin cfg1.N) :
    atCall V c t ⊢ wp frame (wpE (defs₀ (F := F)) Variants.none c none) Set.univ (bodyAt1 t) (fun _ => atReturn V c t) := by
  unfold atCall atReturn bodyAt1
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W1, bigSep_W1]
  exact body_at_point V c t

end Cert.Kernel.Layer2

end
-- ==== Proof.KB.Decode.lean ====
/-
  Region 2 of the program: the decoder sigmoid(z·zᵀ), by an 8×8 grid; point (i, j) holds rows 1024·i … of z in its first
  window and rows 1024·j … of z in its second — both windows stage the same array — and writes the 1024×1024 tile (i, j) of
  the result. The same development as for the two layers' products: rowsOf, tileOut (the body's one store, whose payload is
  the skeleton's logistic of the product of one block with the transpose of the other), body_runs, rdat, duty; the
  proof data hold the shared array at half shares in its two input windows.
-/
import proofs.«106708_j53764400611652_1_alg».proof.Proof.Gen.Kernel.Launch
import proofs.«106708_j53764400611652_1_alg».proof.Proof.Gen.Kernel.Skeleton
import proofs.«106708_j53764400611652_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block whenever the body runs, whether the block was fetched at this
    point or has stayed since an earlier one (the windows are whole and never idle): the rows of z for the first factor, -/
theorem found_x {c : Dev nD} (dat : Dat τ (Elt F) Unit ℕ (UR sig nD τ) ℕ cfg2 c) (hA : dat.A 0 = V c (Pipeline.arrRef spec2 0))
    (hafter : ∀ t, dat.after 0 t = rowsOf V c 0 t) (t : Fin cfg2.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and of z again, for the second factor. -/
theorem found_w {c : Dev nD} (dat : Dat τ (Elt F) Unit ℕ (UR sig nD τ) ℕ cfg2 c) (hA : dat.A 1 = V c (Pipeline.arrRef spec2 1))
    (hafter : ∀ t, dat.after 1 t = rowsOf V c 1 t) (t : Fin cfg2.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x128 := Rect.unit (s := S1024x128) ![0, 0] S1024x128.size inb_S1024x128_S1024x128_0_0
abbrev boxW : Rect S1024x128 := Rect.unit (s := S1024x128) ![0, 0] S1024x128.size inb_S1024x128_S1024x128_0_0
abbrev boxO : Rect S1024x1024 := Rect.unit (s := S1024x1024) ![0, 0] S1024x1024.size inb_S1024x1024_S1024x1024_0_0

/-- What the body leaves in the output's staging buffer: its one store, of the product of the two loaded blocks. -/
def tileOut (x0 : Vec F S1024x128 .f32) (x1 : Vec F S1024x128 .f32) : Vec F S1024x1024 .f32 :=
  View.canon [⟨boxO, k2_pay1 (View.ld x0 boxX) (View.ld x1 boxW)⟩]

/-- The one store covers the buffer. -/
theorem tile_covers (p0 : Vec F S1024x1024 .f32) (y : S1024x1024.Idx) :
    ∃ pc ∈ ([⟨boxO, p0⟩] : List (View.Piece (Elt F) S1024x1024 .f32)), y ∈ pc.1.set :=
  View.cover_of_tiled [⟨boxO, p0⟩] S1024x1024.size (by rfl) y

set_option maxHeartbeats 1000000 in
/-- The body on whole staging buffers: it reads both inputs and the output buffer, stores the product, and returns with
    the inputs as found and the output at `tileOut` of them. -/
theorem body_runs (c : Dev nD) (E : Set ℕ) (i : grid2.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; the shared input array at its left half share in window 0 and its right half in window 1. -/
def rdat (c : Dev nD) : Dat τ (Elt F) Unit ℕ (UR sig nD τ) ℕ cfg2 c where
  A w := V c (Pipeline.arrRef spec2 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec2 c
  q w := match w with
    | ⟨0, _⟩ => fullShare.left
    | ⟨1, _⟩ => fullShare.right
    | ⟨2, _⟩ => fullShare
  owed _ := 0

theorem rdat_A (c : Dev nD) (w : Fin cfg2.W) : (rdat V c).A w = V c (Pipeline.arrRef spec2 w) := by
  dsimp only [rdat]
theorem rdat_after_x (c : Dev nD) (t : Fin cfg2.N) : (rdat V c).after 0 t = rowsOf V c 0 t := by dsimp only [rdat]
theorem rdat_after_w (c : Dev nD) (t : Fin cfg2.N) : (rdat V c).after 1 t = rowsOf V c 1 t := by dsimp only [rdat]
theorem rdat_after_o (c : Dev nD) (t : Fin cfg2.N) : (rdat V c).after 2 t = tileOut (rowsOf V c 0 t) (rowsOf V c 1 t) := by
  dsimp only [rdat]
theorem rdat_before_x (c : Dev nD) (t : Fin cfg2.N) (d) : (rdat V c).before 0 t d = rowsOf V c 0 t :=
  found_x V (rdat V c) (rdat_A V c 0) (rdat_after_x V c) t d
theorem rdat_before_w (c : Dev nD) (t : Fin cfg2.N) (d) : (rdat V c).before 1 t d = rowsOf V c 1 t :=
  found_w V (rdat V c) (rdat_A V c 1) (rdat_after_w V c) t d

/-- What the body is called with at point `t`, the windows one by one, -/
def atCall (c : Dev nD) (t : Fin cfg2.N) : sProp 𝕄 :=
  iprop((rdat V c).Φ t.castSucc ∗ (rdat V c).owesAt () t.castSucc
    ∗ (∃ d, owns (c : Thread nD τ) (st2_0 t) fullShare ((rdat V c).before 0 t d))
    ∗ (∃ d, owns (c : Thread nD τ) (st2_1 t) fullShare ((rdat V c).before 1 t d))
    ∗ (∃ d, owns (c : Thread nD τ) (st2_2 t) fullShare ((rdat V c).before 2 t d)))

/-- and what it returns. -/
def atReturn (c : Dev nD) (t : Fin cfg2.N) : sProp 𝕄 :=
  iprop((rdat V c).Φ t.succ ∗ (rdat V c).owesAt () t.succ
    ∗ owns (c : Thread nD τ) (st2_0 t) fullShare ((rdat V c).after 0 t)
    ∗ owns (c : Thread nD τ) (st2_1 t) fullShare ((rdat V c).after 1 t)
    ∗ owns (c : Thread nD τ) (st2_2 t) fullShare ((rdat V c).after 2 t))

/-- The body at any point: the inputs' buffers hold their blocks, so `body_runs` applies; the invariant and what the core
    owes pass through unread. -/
theorem body_at_point (c : Dev nD) (t : Fin cfg2.N) :
    atCall V c t ⊢ wp frame (wpE (defs₀ (F := F)) Variants.none c none) Set.univ (bodyAt2 t) (fun _ => atReturn V c t) := by
  unfold atCall atReturn bodyAt2
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W2, bigSep_W2]
  exact body_at_point V c t

end Cert.Kernel.Decode

end
-- ==== Proof.KB.Whole.lean ====
/-
  The whole program as nine items — three stretches of host operations, the first matrix product's region, two
  stretches, the second product's region, one stretch, the decoder's region — run from the launch memory.
  Y0 … Y9 are the contents of the core's unscoped buffers at the item boundaries: a stretch applies its operations
  (StableHlo.after), a region overwrites its one output array with what its grid's write-backs leave (arrAt … N) and
  changes nothing else. Each region is entered from "every unscoped buffer at the boundary's contents, the generator
  register at some state, nothing owed" and left at the same with the next boundary's contents; the decoder's two input
  windows stage one array, which is split into two half shares at entry and joined again at exit.
  `whole`: every weakly fair execution terminates, and then the result buffer holds `result m c` — the decoder's
  output array after its 64 write-backs — and every argument its launch contents.
-/
import proofs.«106708_j53764400611652_1_alg».proof.Proof.KB.Layer1
import proofs.«106708_j53764400611652_1_alg».proof.Proof.KB.Layer2
import proofs.«106708_j53764400611652_1_alg».proof.Proof.KB.Decode
import proofs.«106708_j53764400611652_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the item boundaries -/

/-- At launch. -/
abbrev Y0 : Dev nD → Valuation τ sig (Elt F) := fun c b => m (c, b)
/-- After the first stretch (edge lists with self-loops, degrees). -/
abbrev Y1 : Dev nD → Valuation τ sig (Elt F) := fun c => StableHlo.after hostOps0 (Y0 m c)
/-- After the masked inverse square root of the degrees. -/
abbrev Y2 : Dev nD → Valuation τ sig (Elt F) := fun c => StableHlo.after hostOps0_1 (Y1 m c)
/-- After the edge coefficients: the first product's region is entered here. -/
abbrev Y3 : Dev nD → Valuation τ sig (Elt F) := fun c => StableHlo.after hostOps0_2 (Y2 m c)
abbrev U3 : (c : Dev nD) → (b : Ref sig .tc) → Buf (Elt F) ((c : Thread nD τ).loc b) := fun c b => Y3 m c b
/-- The first product as its region leaves it. -/
def prod1 (c : Dev nD) : Buf (Elt F) ((c : Thread nD τ).loc main_v32) := (Layer1.rdat (U3 m) c).arrAt 2 cfg0.N
/-- After the first product's region. -/
def Y4 (c : Dev nD) : Valuation τ sig (Elt F) := Function.update (Y3 m c) main_v32 (prod1 m c)
abbrev U4 : (c : Dev nD) → (b : Ref sig .tc) → Buf (Elt F) ((c : Thread nD τ).loc b) := fun c b => Y4 m c b
/-- After the first layer's aggregation and bias. -/
abbrev Y5 : Dev nD → Valuation τ sig (Elt F) := fun c => StableHlo.after hostOps1 (Y4 m c)
/-- After the rectifier: the second product's region is entered here. -/
abbrev Y6 : Dev nD → Valuation τ sig (Elt F) := fun c => StableHlo.after hostOps1_1 (Y5 m c)
abbrev U6 : (c : Dev nD) → (b : Ref sig .tc) → Buf (Elt F) ((c : Thread nD τ).loc b) := fun c b => Y6 m c b
/-- The second product as its region leaves it. -/
def prod2 (c : Dev nD) : Buf (Elt F) ((c : Thread nD τ).loc main_v50) := (Layer2.rdat (U6 m) c).arrAt 2 cfg1.N
/-- After the second product's region. -/
def Y7 (c : Dev nD) : Valuation τ sig (Elt F) := Function.update (Y6 m c) main_v50 (prod2 m c)
abbrev U7 : (c : Dev nD) → (b : Ref sig .tc) → Buf (Elt F) ((c : Thread nD τ).loc b) := fun c b => Y7 m c b
/-- After the second layer's aggregation and bias: the decoder's region is entered here. -/
abbrev Y8 : Dev nD → Valuation τ sig (Elt F) := fun c => StableHlo.after hostOps2 (Y7 m c)
abbrev U8 : (c : Dev nD) → (b : Ref sig .tc) → Buf (Elt F) ((c : Thread nD τ).loc b) := fun c b => Y8 m c b
/-- The decoder's output as its region leaves it: the program's result. -/
def result (c : Dev nD) : Buf (Elt F) ((c : Thread nD τ).loc main_v67) := (Decode.rdat (U8 m) c).arrAt 2 cfg2.N
/-- At the end. -/
def Y9 (c : Dev nD) : Valuation τ sig (Elt F) := Function.update (Y8 m c) main_v67 (result m c)
abbrev U9 : (c : Dev nD) → (b : Ref sig .tc) → Buf (Elt F) ((c : Thread nD τ).loc b) := fun c b => Y9 m c b

theorem Y4_out (c : Dev nD) : Y4 m c main_v32 = prod1 m c := by unfold Y4; exact Function.update_self ..
theorem Y4_else (c : Dev nD) (r : Ref sig .tc) (h : r ≠ main_v32) : Y4 m c r = Y3 m c r := by
  unfold Y4; exact Function.update_of_ne (StableHlo.devRef_ne_of_ne h : (Proc.devRef .tc r : DevRef τ sig) ≠ Proc.devRef .tc main_v32) ..
theorem Y7_out (c : Dev nD) : Y7 m c main_v50 = prod2 m c := by unfold Y7; exact Function.update_self ..
theorem Y7_else (c : Dev nD) (r : Ref sig .tc) (h : r ≠ main_v50) : Y7 m c r = Y6 m c r := by
  unfold Y7; exact Function.update_of_ne (StableHlo.devRef_ne_of_ne h : (Proc.devRef .tc r : DevRef τ sig) ≠ Proc.devRef .tc main_v50) ..
theorem Y9_out (c : Dev nD) : Y9 m c main_v67 = result m c := by unfold Y9; exact Function.update_self ..
theorem Y9_else (c : Dev nD) (r : Ref sig .tc) (h : r ≠ main_v67) : Y9 m c r = Y8 m c r := by
  unfold Y9; exact Function.update_of_ne (StableHlo.devRef_ne_of_ne h : (Proc.devRef .tc r : DevRef τ sig) ≠ Proc.devRef .tc main_v67) ..

/-- A buffer that no stretch writes and that is no region's output ends as launched. -/
theorem untouched (c : Dev nD) (r : Ref sig .tc) (h0 : r ∉ hostOps0_W) (h1 : r ∉ hostOps0_1_W) (h2 : r ∉ hostOps0_2_W) (h3 : r ≠ main_v32)
    (h4 : r ∉ hostOps1_W) (h5 : r ∉ hostOps1_1_W) (h6 : r ≠ main_v50) (h7 : r ∉ hostOps2_W) (h8 : r ≠ main_v67) :
    Y9 m c r = m ((c : Thread nD τ).loc r) :=
  (Y9_else m c r h8).trans <| (StableHlo.after_of_writes_sub hostOps2 _ hostOps2_writes h7).trans <| (Y7_else m c r h6).trans <|
    (StableHlo.after_of_writes_sub hostOps1_1 _ hostOps1_1_writes h5).trans <| (StableHlo.after_of_writes_sub hostOps1 _ hostOps1_writes h4).trans <|
    (Y4_else m c r h3).trans <| (StableHlo.after_of_writes_sub hostOps0_2 _ hostOps0_2_writes h2).trans <|
    (StableHlo.after_of_writes_sub hostOps0_1 _ hostOps0_1_writes h1).trans <| (StableHlo.after_of_writes_sub hostOps0 _ hostOps0_writes h0).trans rfl

/-! ## The proof data family and the thread state -/

/-- Every pipeline's proof data, each over its region's entry contents. -/
def pdats : (p : Fin 3) → (c : Dev nD) → Dat τ (Elt F) Unit ℕ (UR sig nD τ) ℕ (Pipeline.pin (pcfgs (F := F)) adm p) c
  | ⟨0, _⟩ => fun c => Layer1.rdat (U3 m) c
  | ⟨1, _⟩ => fun c => Layer2.rdat (U6 m) c
  | ⟨2, _⟩ => fun c => Decode.rdat (U8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y9 m c) ∗ ∃ r, prngReg c r)

/-! ## The first product's region -/

theorem exit1 (c : Dev nD) (w : Fin cfg0.W) : (Layer1.rdat (U3 m) c).arrAt w cfg0.N = U4 m c (Pipeline.arrRef spec0 w) :=
  match w with
  | ⟨0, _⟩ => (((Layer1.rdat (U3 m) c).arrAt_in 0 rfl _).trans (Layer1.rdat_A (U3 m) c 0)).trans (Y4_else m c main_arg0 (by decide)).symm
  | ⟨1, _⟩ => (((Layer1.rdat (U3 m) c).arrAt_in 1 rfl _).trans (Layer1.rdat_A (U3 m) c 1)).trans (Y4_else m c main_arg2 (by decide)).symm
  | ⟨2, _⟩ => (Y4_out m c).symm
theorem rest1 (c : Dev nD) : ∀ b, b ∉ Finset.univ.image (Pipeline.arrRef spec0) → U4 m c b = U3 m c b :=
  fun b hb => Y4_else m c b fun e => hb (Finset.mem_image.mpr ⟨2, Finset.mem_univ _, e.symm⟩)

set_option backward.isDefEq.respectTransparency.types false in
/-- The first product's region over the thread state: entered at `Y3`, left at `Y4`. Its arrays are taken out of the
    unscoped buffers and put back at the exit contents; the generator register goes into the invariant and comes back. -/
def reg1 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer1.duty (U3 m) c).loose
  hwaits := Pipeline.hwaits_of_owed_zero _ _ _ _ L lv 0 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second product's region -/

theorem exit2 (c : Dev nD) (w : Fin cfg1.W) : (Layer2.rdat (U6 m) c).arrAt w cfg1.N = U7 m c (Pipeline.arrRef spec1 w) :=
  match w with
  | ⟨0, _⟩ => (((Layer2.rdat (U6 m) c).arrAt_in 0 rfl _).trans (Layer2.rdat_A (U6 m) c 0)).trans (Y7_else m c main_v49 (by decide)).symm
  | ⟨1, _⟩ => (((Layer2.rdat (U6 m) c).arrAt_in 1 rfl _).trans (Layer2.rdat_A (U6 m) c 1)).trans (Y7_else m c main_arg4 (by decide)).symm
  | ⟨2, _⟩ => (Y7_out m c).symm
theorem rest2 (c : Dev nD) : ∀ b, b ∉ Finset.univ.image (Pipeline.arrRef spec1) → U7 m c b = U6 m c b :=
  fun b hb => Y7_else m c b fun e => hb (Finset.mem_image.mpr ⟨2, Finset.mem_univ _, e.symm⟩)

set_option backward.isDefEq.respectTransparency.types false in
/-- The second product's region over the thread state: entered at `Y6`, left at `Y7`. Its arrays are taken out of the
    unscoped buffers and put back at the exit contents; the generator register goes into the invariant and comes back. -/
def reg2 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer2.duty (U6 m) c).loose
  hwaits := Pipeline.hwaits_of_owed_zero _ _ _ _ L lv 1 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (exit2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The decoder's region -/

/-- The decoder's arrays are two buffers: the embeddings, staged by both input windows, and the result. -/
theorem dec_arrays : (Finset.univ.image (Pipeline.arrRef spec2) : Finset (Ref sig .tc)) = {main_v66, main_v67} := by decide

/-- The decoder's windowed arrays at contents read off a valuation ARE the two buffers behind them at those contents:
    the embeddings' buffer at the full share is its left half, held by the first window, beside its right half, held by
    the second. -/
theorem dec_arrays_bufs (V : (c : Dev nD) → (b : Ref sig .tc) → Buf (Elt F) ((c : Thread nD τ).loc b)) (c : Dev nD)
    (Vc : (b : Ref sig .tc) → Buf (Elt F) ((c : Thread nD τ).loc b))
    (G : (w : Fin cfg2.W) → Buf (Elt F) ((cfg2.win w).arr.view.loc (c.tc : Thread nD τ))) (hG : ∀ w, G w = Vc (Pipeline.arrRef spec2 w)) :
    ((Decode.rdat V c).arrays G : sProp 𝕄) = Pipeline.arrBufs (Ix := Unit) (Name := ℕ) (U := UR sig nD τ) (Lvl := ℕ) spec2 c Vc := by
  unfold Dat.arrays Pipeline.arrBufs
  rw [bigSep_W2, dec_arrays, bigSep_insert (by decide), bigSep_singleton, hG 0, hG 1, hG 2,
    (arr_whole2 0).set_eq_univ, (arr_whole2 2).set_eq_univ]
  show iprop((((c : Thread nD τ).loc main_v66) ↦{fullShare.left} Vc main_v66) ∗ (((c : Thread nD τ).loc main_v66) ↦{fullShare.right} Vc main_v66)
      ∗ (((c : Thread nD τ).loc main_v67) ↦{fullShare} Vc main_v67)) = _
  have halves : ((((c : Thread nD τ).loc main_v66) ↦{fullShare} Vc main_v66 : sProp 𝕄))
      = iprop((((c : Thread nD τ).loc main_v66) ↦{fullShare.left} Vc main_v66) ∗ (((c : Thread nD τ).loc main_v66) ↦{fullShare.right} Vc main_v66)) :=
    equiv_iff.mp ⟨(pointsTo_share (PosShare.mem_left_op_right fullShare)).mp, (pointsTo_share (PosShare.mem_left_op_right fullShare)).mpr⟩
  rw [halves]
  exact equiv_iff.mp ⟨Idealize.SL.BI.sep_assoc', Idealize.SL.BI.sep_assoc⟩

theorem entry3 (c : Dev nD) (w : Fin cfg2.W) : (Decode.rdat (U8 m) c).arrAt w 0 = U8 m c (Pipeline.arrRef spec2 w) :=
  Decode.rdat_A (U8 m) c w
theorem exit3 (c : Dev nD) (w : Fin cfg2.W) : (Decode.rdat (U8 m) c).arrAt w cfg2.N = U9 m c (Pipeline.arrRef spec2 w) :=
  match w with
  | ⟨0, _⟩ => (((Decode.rdat (U8 m) c).arrAt_in 0 rfl _).trans (Decode.rdat_A (U8 m) c 0)).trans (Y9_else m c main_v66 (by decide)).symm
  | ⟨1, _⟩ => (((Decode.rdat (U8 m) c).arrAt_in 1 rfl _).trans (Decode.rdat_A (U8 m) c 1)).trans (Y9_else m c main_v66 (by decide)).symm
  | ⟨2, _⟩ => (Y9_out m c).symm
theorem rest3 (c : Dev nD) : ∀ b, b ∉ Finset.univ.image (Pipeline.arrRef spec2) → U9 m c b = U8 m c b :=
  fun b hb => Y9_else m c b fun e => hb (Finset.mem_image.mpr ⟨2, Finset.mem_univ _, e.symm⟩)

/-- Entering: every unscoped buffer at `Y8` is the decoder's arrays at their entry contents beside the other buffers. -/
theorem dec_enter (c : Dev nD) :
    (StableHlo.held (c : Thread nD τ) (Pipeline.ucRefs τ sig) (Y8 m c) : sProp 𝕄)
      = iprop((Decode.rdat (U8 m) c).arrays ((Decode.rdat (U8 m) c).arrAt · 0)
          ∗ Pipeline.unscopedRest (Ix := Unit) (Name := ℕ) (U := UR sig nD τ) (Lvl := ℕ) spec2 c (U8 m c)) := by
  rw [← Pipeline.unscopedBufs_held c (Y8 m c), Pipeline.unscopedBufs_split₀ (Pipeline.pin (pcfgs (F := F)) adm) 2 winFacts₀2.arr_unscoped c (U8 m c),
    dec_arrays_bufs (U8 m) c (U8 m c) _ (entry3 m c)]
  rfl

/-- Leaving: the arrays at their final contents beside the other buffers are every unscoped buffer at `Y9`. -/
theorem dec_leave (c : Dev nD) :
    iprop((Decode.rdat (U8 m) c).arrays ((Decode.rdat (U8 m) c).arrAt · cfg2.N)
          ∗ Pipeline.unscopedRest (Ix := Unit) (Name := ℕ) (U := UR sig nD τ) (Lvl := ℕ) spec2 c (U8 m c))
      ⊢ (StableHlo.held (c : Thread nD τ) (Pipeline.ucRefs τ sig) (Y9 m c) : sProp 𝕄) := by
  rw [← Pipeline.unscopedBufs_held c (Y9 m c), Pipeline.unscopedBufs_split₀ (Pipeline.pin (pcfgs (F := F)) adm) 2 winFacts₀2.arr_unscoped c (U9 m c),
    dec_arrays_bufs (U8 m) c (U9 m c) _ (exit3 m c)]
  refine sep_mono .rfl (Entails.of_eq ?_)
  unfold Pipeline.unscopedRest
  exact bigSep_congr fun b hb => by rw [rest3 m c b (Finset.mem_sdiff.mp hb).2]

set_option backward.isDefEq.respectTransparency.types false in
/-- The decoder's region over the thread state: entered at `Y8`, left at `Y9`, the program's last item. -/
def reg3 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Decode.duty (U8 m) c).loose
  hwaits := Pipeline.hwaits_of_owed_zero _ _ _ _ L lv 2 fun _ _ => rfl
  pre c := iprop(StableHlo.held (c : Thread nD τ) (Pipeline.ucRefs τ sig) (Y8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Entails.of_eq (dec_enter m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U8 m c))
        ⊢ (StableHlo.held (c : Thread nD τ) (Pipeline.ucRefs τ sig) (Y9 m c) : sProp 𝕄) := dec_leave m c
    iintro ⟨Ha, HO, HY, Hrest⟩
    imodintro
    isplitl [Ha Hrest HY]
    · isplitl [Ha Hrest]
      · iapply hjoin
        isplitl [Ha]
        · iexact Ha
        · iexact Hrest
      iexact HY
    unfold Pipeline.Dat.owesAt Pipeline.owesWithin
    icases HO with ⟨%W, -, HO⟩; iexists W; iexact HO

/-! ## The program as its items, and the run -/

/-- The nine items in order. -/
abbrev segs : List (Pipeline.Seg (pcfgs (F := F)) adm (pdats m) () defs₀ 𝒱₀ L lv) :=
  [ .host (hseg hostOps0 hostOps0_sub hostOps0_fresh (Y0 m)),
    .host (hseg hostOps0_1 hostOps0_1_sub hostOps0_1_fresh (Y1 m)),
    .host (hseg hostOps0_2 hostOps0_2_sub hostOps0_2_fresh (Y2 m)),
    .region (reg1 m),
    .host (hseg hostOps1 hostOps1_sub hostOps1_fresh (Y4 m)),
    .host (hseg hostOps1_1 hostOps1_1_sub hostOps1_1_fresh (Y5 m)),
    .region (reg2 m),
    .host (hseg hostOps2 hostOps2_sub hostOps2_fresh (Y7 m)),
    .region (reg3 m) ]
/-- The program IS the run of the items. -/
theorem main_run (c : Dev nD) : main (F := F) c = Pipeline.Seg.run (segs m) := (main_chain c).trans (by chain_rfl)

set_option backward.isDefEq.respectTransparency.types false in
/-- From any memory with zero counters, every weakly fair execution of the program terminates, nothing faulting; the
    result buffer then holds what the decoder's write-backs left and every argument its launch contents. -/
theorem whole : θ_run defs (onTc (τ := τ) (main (F := F))) ⟨m, fun _ => 0, ρ⟩ (fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y9 m c b)
    (hfin := fun c s' => by
      iintro ⟨⟨Hh, -⟩, HSI⟩
      unfold StableHlo.held
      imodintro
      iapply (pointsTo_read_all (Pipeline.ucRefs τ sig) (fun b => (((c : Thread nD τ)).1, b)) (Y9 m c) s')
      isplitl [Hh] <;> iassumption)
    (hQ := fun s h c =>
      ⟨(h c _ (mem_uc main_v67 (by decide))).trans (Y9_out m c),
       (h c _ (mem_uc main_arg0 (by decide))).trans (untouched m c main_arg0 (by decide) (by decide) (by decide) (by decide) (by decide) (by decide) (by decide) (by decide) (by decide)),
       (h c _ (mem_uc main_arg1 (by decide))).trans (untouched m c main_arg1 (by decide) (by decide) (by decide) (by decide) (by decide) (by decide) (by decide) (by decide) (by decide)),
       (h c _ (mem_uc main_arg2 (by decide))).trans (untouched m c main_arg2 (by decide) (by decide) (by decide) (by decide) (by decide) (by decide) (by decide) (by decide) (by decide)),
       (h c _ (mem_uc main_arg3 (by decide))).trans (untouched m c main_arg3 (by decide) (by decide) (by decide) (by decide) (by decide) (by decide) (by decide) (by decide) (by decide)),
       (h c _ (mem_uc main_arg4 (by decide))).trans (untouched m c main_arg4 (by decide) (by decide) (by decide) (by decide) (by decide) (by decide) (by decide) (by decide) (by decide)),
       (h c _ (mem_uc main_arg5 (by decide))).trans (untouched m c main_arg5 (by decide) (by decide) (by decide) (by decide) (by decide) (by decide) (by decide) (by decide) (by decide))⟩)

end Cert.Kernel.Whole

end
-- ==== Proof.KI.Layer1.lean ====
/-
  Region 0 of the program: the first dense layer's product x·W1, computed by a grid of 8 points, point t
  holding rows 1024·t … 1024·t+1023 of x, all of W1, and writing the same rows of the product.
  Stated at a parameter V, the contents of the core's buffers when the region is entered:
  * rowsOf V c w t — the block of window w's array that point t stages;
  * tileOut — what one run of the body leaves in the output's staging buffer, as a function of the two input
    blocks: the body's one store, whose payload is the skeleton's product term;
  * body_runs — the body's triple: inputs kept, output buffer at tileOut of them;
  * rdat — the pipeline's proof data over V, and duty — the library's body obligation for it.
-/
import proofs.«106708_j53764400611652_1_alg».proof.Proof.Gen.KernelIdeal.Launch
import proofs.«106708_j53764400611652_1_alg».proof.Proof.Gen.KernelIdeal.Skeleton
import proofs.«106708_j53764400611652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs, whether the block was fetched at this
    point or has stayed since an earlier one (the windows are whole and never idle): the rows of x, -/
theorem found_x {c : Dev nD} (dat : Dat τ (Elt F) Unit ℕ (UR sig nD τ) ℕ cfg0 c) (hA : dat.A 0 = V c (Pipeline.arrRef spec0 0))
    (hafter : ∀ t, dat.after 0 t = rowsOf V c 0 t) (t : Fin cfg0.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and the weights, fetched once. -/
theorem found_w {c : Dev nD} (dat : Dat τ (Elt F) Unit ℕ (UR sig nD τ) ℕ cfg0 c) (hA : dat.A 1 = V c (Pipeline.arrRef spec0 1))
    (hafter : ∀ t, dat.after 1 t = rowsOf V c 1 t) (t : Fin cfg0.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x512 := Rect.unit (s := S1024x512) ![0, 0] S1024x512.size inb_S1024x512_S1024x512_0_0
abbrev boxW : Rect S512x256 := Rect.unit (s := S512x256) ![0, 0] S512x256.size inb_S512x256_S512x256_0_0
abbrev boxO : Rect S1024x256 := Rect.unit (s := S1024x256) ![0, 0] S1024x256.size inb_S1024x256_S1024x256_0_0

/-- What the body leaves in the output's staging buffer: its one store, of the product of the two loaded blocks. -/
def tileOut (x0 : Vec F S1024x512 .f32) (x1 : Vec F S512x256 .f32) : Vec F S1024x256 .f32 :=
  View.canon [⟨boxO, k0_pay1 (View.ld x0 boxX) (View.ld x1 boxW)⟩]

/-- The one store covers the buffer. -/
theorem tile_covers (p0 : Vec F S1024x256 .f32) (y : S1024x256.Idx) :
    ∃ pc ∈ ([⟨boxO, p0⟩] : List (View.Piece (Elt F) S1024x256 .f32)), y ∈ pc.1.set :=
  View.cover_of_tiled [⟨boxO, p0⟩] S1024x256.size (by rfl) y

set_option maxHeartbeats 1000000 in
/-- The body on whole staging buffers: it reads both inputs and the output buffer, stores the product, and returns with
    the inputs as found and the output at `tileOut` of them. -/
theorem body_runs (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; full shares. -/
def rdat (c : Dev nD) : Dat τ (Elt F) Unit ℕ (UR sig nD τ) ℕ cfg0 c where
  A w := V c (Pipeline.arrRef spec0 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec0 c
  q _ := fullShare
  owed _ := 0

theorem rdat_A (c : Dev nD) (w : Fin cfg0.W) : (rdat V c).A w = V c (Pipeline.arrRef spec0 w) := by
  dsimp only [rdat]
theorem rdat_after_x (c : Dev nD) (t : Fin cfg0.N) : (rdat V c).after 0 t = rowsOf V c 0 t := by dsimp only [rdat]
theorem rdat_after_w (c : Dev nD) (t : Fin cfg0.N) : (rdat V c).after 1 t = rowsOf V c 1 t := by dsimp only [rdat]
theorem rdat_after_o (c : Dev nD) (t : Fin cfg0.N) : (rdat V c).after 2 t = tileOut (rowsOf V c 0 t) (rowsOf V c 1 t) := by
  dsimp only [rdat]
theorem rdat_before_x (c : Dev nD) (t : Fin cfg0.N) (d) : (rdat V c).before 0 t d = rowsOf V c 0 t :=
  found_x V (rdat V c) (rdat_A V c 0) (rdat_after_x V c) t d
theorem rdat_before_w (c : Dev nD) (t : Fin cfg0.N) (d) : (rdat V c).before 1 t d = rowsOf V c 1 t :=
  found_w V (rdat V c) (rdat_A V c 1) (rdat_after_w V c) t d

/-- What the body is called with at point `t`, the windows one by one, -/
def atCall (c : Dev nD) (t : Fin cfg0.N) : sProp 𝕄 :=
  iprop((rdat V c).Φ t.castSucc ∗ (rdat V c).owesAt () t.castSucc
    ∗ (∃ d, owns (c : Thread nD τ) (st0_0 t) fullShare ((rdat V c).before 0 t d))
    ∗ (∃ d, owns (c : Thread nD τ) (st0_1 t) fullShare ((rdat V c).before 1 t d))
    ∗ (∃ d, owns (c : Thread nD τ) (st0_2 t) fullShare ((rdat V c).before 2 t d)))

/-- and what it returns. -/
def atReturn (c : Dev nD) (t : Fin cfg0.N) : sProp 𝕄 :=
  iprop((rdat V c).Φ t.succ ∗ (rdat V c).owesAt () t.succ
    ∗ owns (c : Thread nD τ) (st0_0 t) fullShare ((rdat V c).after 0 t)
    ∗ owns (c : Thread nD τ) (st0_1 t) fullShare ((rdat V c).after 1 t)
    ∗ owns (c : Thread nD τ) (st0_2 t) fullShare ((rdat V c).after 2 t))

/-- The body at any point: the inputs' buffers hold their blocks, so `body_runs` applies; the invariant and what the core
    owes pass through unread. -/
theorem body_at_point (c : Dev nD) (t : Fin cfg0.N) :
    atCall V c t ⊢ wp frame (wpE (defs₀ (F := F)) Variants.none c none) Set.univ (bodyAt0 t) (fun _ => atReturn V c t) := by
  unfold atCall atReturn bodyAt0
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W0, bigSep_W0]
  exact body_at_point V c t

end Cert.KernelIdeal.Layer1

end
-- ==== Proof.KI.Layer2.lean ====
/-
  Region 1 of the program: the second dense layer's product h·W2, by a grid of 8 points, point t holding rows
  1024·t … 1024·t+1023 of h, all of W2, and writing the same rows of the product. The same development as for the first
  layer's product, at this layer's shapes: rowsOf, tileOut, body_runs, rdat, duty.
-/
import proofs.«106708_j53764400611652_1_alg».proof.Proof.Gen.KernelIdeal.Launch
import proofs.«106708_j53764400611652_1_alg».proof.Proof.Gen.KernelIdeal.Skeleton
import proofs.«106708_j53764400611652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, whether the block was fetched at this
    point or has stayed since an earlier one (the windows are whole and never idle): the rows of x, -/
theorem found_x {c : Dev nD} (dat : Dat τ (Elt F) Unit ℕ (UR sig nD τ) ℕ cfg1 c) (hA : dat.A 0 = V c (Pipeline.arrRef spec1 0))
    (hafter : ∀ t, dat.after 0 t = rowsOf V c 0 t) (t : Fin cfg1.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and the weights, fetched once. -/
theorem found_w {c : Dev nD} (dat : Dat τ (Elt F) Unit ℕ (UR sig nD τ) ℕ cfg1 c) (hA : dat.A 1 = V c (Pipeline.arrRef spec1 1))
    (hafter : ∀ t, dat.after 1 t = rowsOf V c 1 t) (t : Fin cfg1.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x256 := Rect.unit (s := S1024x256) ![0, 0] S1024x256.size inb_S1024x256_S1024x256_0_0
abbrev boxW : Rect S256x128 := Rect.unit (s := S256x128) ![0, 0] S256x128.size inb_S256x128_S256x128_0_0
abbrev boxO : Rect S1024x128 := Rect.unit (s := S1024x128) ![0, 0] S1024x128.size inb_S1024x128_S1024x128_0_0

/-- What the body leaves in the output's staging buffer: its one store, of the product of the two loaded blocks. -/
def tileOut (x0 : Vec F S1024x256 .f32) (x1 : Vec F S256x128 .f32) : Vec F S1024x128 .f32 :=
  View.canon [⟨boxO, k1_pay1 (View.ld x0 boxX) (View.ld x1 boxW)⟩]

/-- The one store covers the buffer. -/
theorem tile_covers (p0 : Vec F S1024x128 .f32) (y : S1024x128.Idx) :
    ∃ pc ∈ ([⟨boxO, p0⟩] : List (View.Piece (Elt F) S1024x128 .f32)), y ∈ pc.1.set :=
  View.cover_of_tiled [⟨boxO, p0⟩] S1024x128.size (by rfl) y

set_option maxHeartbeats 1000000 in
/-- The body on whole staging buffers: it reads both inputs and the output buffer, stores the product, and returns with
    the inputs as found and the output at `tileOut` of them. -/
theorem body_runs (c : Dev nD) (E : Set ℕ) (i : grid1.Coords)
    (arg1 : Memref sig .tc .vmem S1024x256 .f32) (harg1 : arg1.IsWhole) (arg2 : Memref sig .tc .vmem S256x128 .f32) (harg2 : arg2.IsWhole)
    (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (tileOut x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; full shares. -/
def rdat (c : Dev nD) : Dat τ (Elt F) Unit ℕ (UR sig nD τ) ℕ cfg1 c where
  A w := V c (Pipeline.arrRef spec1 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec1 c
  q _ := fullShare
  owed _ := 0

theorem rdat_A (c : Dev nD) (w : Fin cfg1.W) : (rdat V c).A w = V c (Pipeline.arrRef spec1 w) := by
  dsimp only [rdat]
theorem rdat_after_x (c : Dev nD) (t : Fin cfg1.N) : (rdat V c).after 0 t = rowsOf V c 0 t := by dsimp only [rdat]
theorem rdat_after_w (c : Dev nD) (t : Fin cfg1.N) : (rdat V c).after 1 t = rowsOf V c 1 t := by dsimp only [rdat]
theorem rdat_after_o (c : Dev nD) (t : Fin cfg1.N) : (rdat V c).after 2 t = tileOut (rowsOf V c 0 t) (rowsOf V c 1 t) := by
  dsimp only [rdat]
theorem rdat_before_x (c : Dev nD) (t : Fin cfg1.N) (d) : (rdat V c).before 0 t d = rowsOf V c 0 t :=
  found_x V (rdat V c) (rdat_A V c 0) (rdat_after_x V c) t d
theorem rdat_before_w (c : Dev nD) (t : Fin cfg1.N) (d) : (rdat V c).before 1 t d = rowsOf V c 1 t :=
  found_w V (rdat V c) (rdat_A V c 1) (rdat_after_w V c) t d

/-- What the body is called with at point `t`, the windows one by one, -/
def atCall (c : Dev nD) (t : Fin cfg1.N) : sProp 𝕄 :=
  iprop((rdat V c).Φ t.castSucc ∗ (rdat V c).owesAt () t.castSucc
    ∗ (∃ d, owns (c : Thread nD τ) (st1_0 t) fullShare ((rdat V c).before 0 t d))
    ∗ (∃ d, owns (c : Thread nD τ) (st1_1 t) fullShare ((rdat V c).before 1 t d))
    ∗ (∃ d, owns (c : Thread nD τ) (st1_2 t) fullShare ((rdat V c).before 2 t d)))

/-- and what it returns. -/
def atReturn (c : Dev nD) (t : Fin cfg1.N) : sProp 𝕄 :=
  iprop((rdat V c).Φ t.succ ∗ (rdat V c).owesAt () t.succ
    ∗ owns (c : Thread nD τ) (st1_0 t) fullShare ((rdat V c).after 0 t)
    ∗ owns (c : Thread nD τ) (st1_1 t) fullShare ((rdat V c).after 1 t)
    ∗ owns (c : Thread nD τ) (st1_2 t) fullShare ((rdat V c).after 2 t))

/-- The body at any point: the inputs' buffers hold their blocks, so `body_runs` applies; the invariant and what the core
    owes pass through unread. -/
theorem body_at_point (c : Dev nD) (t : Fin cfg1.N) :
    atCall V c t ⊢ wp frame (wpE (defs₀ (F := F)) Variants.none c none) Set.univ (bodyAt1 t) (fun _ => atReturn V c t) := by
  unfold atCall atReturn bodyAt1
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W1, bigSep_W1]
  exact body_at_point V c t

end Cert.KernelIdeal.Layer2

end
-- ==== Proof.KI.Decode.lean ====
/-
  Region 2 of the program: the decoder sigmoid(z·zᵀ), by an 8×8 grid; point (i, j) holds rows 1024·i … of z in its first
  window and rows 1024·j … of z in its second — both windows stage the same array — and writes the 1024×1024 tile (i, j) of
  the result. The same development as for the two layers' products: rowsOf, tileOut (the body's one store, whose payload is
  the skeleton's logistic of the product of one block with the transpose of the other), body_runs, rdat, duty; the
  proof data hold the shared array at half shares in its two input windows.
-/
import proofs.«106708_j53764400611652_1_alg».proof.Proof.Gen.KernelIdeal.Launch
import proofs.«106708_j53764400611652_1_alg».proof.Proof.Gen.KernelIdeal.Skeleton
import proofs.«106708_j53764400611652_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def rowsOf (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block whenever the body runs, whether the block was fetched at this
    point or has stayed since an earlier one (the windows are whole and never idle): the rows of z for the first factor, -/
theorem found_x {c : Dev nD} (dat : Dat τ (Elt F) Unit ℕ (UR sig nD τ) ℕ cfg2 c) (hA : dat.A 0 = V c (Pipeline.arrRef spec2 0))
    (hafter : ∀ t, dat.after 0 t = rowsOf V c 0 t) (t : Fin cfg2.N) (d) : dat.before 0 t d = rowsOf V c 0 t :=
  (dat.before_in_eq_fetched 0 rfl (fun _ => rfl) (fun _ _ _ => rfl) (fun t => by rw [hafter]; unfold Dat.blockOf rowsOf; rw [hA]; try rfl) t d).trans
    (by unfold Dat.fetched Dat.blockOf rowsOf; rw [hA]; try rfl)
/-- and of z again, for the second factor. -/
theorem found_w {c : Dev nD} (dat : Dat τ (Elt F) Unit ℕ (UR sig nD τ) ℕ cfg2 c) (hA : dat.A 1 = V c (Pipeline.arrRef spec2 1))
    (hafter : ∀ t, dat.after 1 t = rowsOf V c 1 t) (t : Fin cfg2.N) (d) : dat.before 1 t d = rowsOf V c 1 t :=
  (dat.before_in_eq_fetched 1 rfl (fun _ => rfl) (fun _ _ _ => rfl) (fun t => by rw [hafter]; unfold Dat.blockOf rowsOf; rw [hA]; try rfl) t d).trans
    (by unfold Dat.fetched Dat.blockOf rowsOf; rw [hA]; try rfl)

/-- The whole-buffer rectangles the body loads and stores through. -/
abbrev boxX : Rect S1024x128 := Rect.unit (s := S1024x128) ![0, 0] S1024x128.size inb_S1024x128_S1024x128_0_0
abbrev boxW : Rect S1024x128 := Rect.unit (s := S1024x128) ![0, 0] S1024x128.size inb_S1024x128_S1024x128_0_0
abbrev boxO : Rect S1024x1024 := Rect.unit (s := S1024x1024) ![0, 0] S1024x1024.size inb_S1024x1024_S1024x1024_0_0

/-- What the body leaves in the output's staging buffer: its one store, of the product of the two loaded blocks. -/
def tileOut (x0 : Vec F S1024x128 .f32) (x1 : Vec F S1024x128 .f32) : Vec F S1024x1024 .f32 :=
  View.canon [⟨boxO, k2_pay1 (View.ld x0 boxX) (View.ld x1 boxW)⟩]

/-- The one store covers the buffer. -/
theorem tile_covers (p0 : Vec F S1024x1024 .f32) (y : S1024x1024.Idx) :
    ∃ pc ∈ ([⟨boxO, p0⟩] : List (View.Piece (Elt F) S1024x1024 .f32)), y ∈ pc.1.set :=
  View.cover_of_tiled [⟨boxO, p0⟩] S1024x1024.size (by rfl) y

set_option maxHeartbeats 1000000 in
/-- The body on whole staging buffers: it reads both inputs and the output buffer, stores the product, and returns with
    the inputs as found and the output at `tileOut` of them. -/
theorem body_runs (c : Dev nD) (E : Set ℕ) (i : grid2.Coords)
    (arg2 : Memref sig .tc .vmem S1024x128 .f32) (harg2 : arg2.IsWhole) (arg3 : Memref sig .tc .vmem S1024x128 .f32) (harg3 : arg3.IsWhole)
    (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-- The pipeline's proof data over the entry contents `V`: the arrays as found; after the body at point `t` each input's
    buffer still at its block and the output's at `tileOut` of the two blocks; the invariant the untouched scoped rest
    and the generator register; nothing owed; the shared input array at its left half share in window 0 and its right half in window 1. -/
def rdat (c : Dev nD) : Dat τ (Elt F) Unit ℕ (UR sig nD τ) ℕ cfg2 c where
  A w := V c (Pipeline.arrRef spec2 w)
  after w t := match w with
    | ⟨0, _⟩ => rowsOf V c 0 t
    | ⟨1, _⟩ => rowsOf V c 1 t
    | ⟨2, _⟩ => tileOut (rowsOf V c 0 t) (rowsOf V c 1 t)
  Φ _ := Pipeline.ΦA spec2 c
  q w := match w with
    | ⟨0, _⟩ => fullShare.left
    | ⟨1, _⟩ => fullShare.right
    | ⟨2, _⟩ => fullShare
  owed _ := 0

theorem rdat_A (c : Dev nD) (w : Fin cfg2.W) : (rdat V c).A w = V c (Pipeline.arrRef spec2 w) := by
  dsimp only [rdat]
theorem rdat_after_x (c : Dev nD) (t : Fin cfg2.N) : (rdat V c).after 0 t = rowsOf V c 0 t := by dsimp only [rdat]
theorem rdat_after_w (c : Dev nD) (t : Fin cfg2.N) : (rdat V c).after 1 t = rowsOf V c 1 t := by dsimp only [rdat]
theorem rdat_after_o (c : Dev nD) (t : Fin cfg2.N) : (rdat V c).after 2 t = tileOut (rowsOf V c 0 t) (rowsOf V c 1 t) := by
  dsimp only [rdat]
theorem rdat_before_x (c : Dev nD) (t : Fin cfg2.N) (d) : (rdat V c).before 0 t d = rowsOf V c 0 t :=
  found_x V (rdat V c) (rdat_A V c 0) (rdat_after_x V c) t d
theorem rdat_before_w (c : Dev nD) (t : Fin cfg2.N) (d) : (rdat V c).before 1 t d = rowsOf V c 1 t :=
  found_w V (rdat V c) (rdat_A V c 1) (rdat_after_w V c) t d

/-- What the body is called with at point `t`, the windows one by one, -/
def atCall (c : Dev nD) (t : Fin cfg2.N) : sProp 𝕄 :=
  iprop((rdat V c).Φ t.castSucc ∗ (rdat V c).owesAt () t.castSucc
    ∗ (∃ d, owns (c : Thread nD τ) (st2_0 t) fullShare ((rdat V c).before 0 t d))
    ∗ (∃ d, owns (c : Thread nD τ) (st2_1 t) fullShare ((rdat V c).before 1 t d))
    ∗ (∃ d, owns (c : Thread nD τ) (st2_2 t) fullShare ((rdat V c).before 2 t d)))

/-- and what it returns. -/
def atReturn (c : Dev nD) (t : Fin cfg2.N) : sProp 𝕄 :=
  iprop((rdat V c).Φ t.succ ∗ (rdat V c).owesAt () t.succ
    ∗ owns (c : Thread nD τ) (st2_0 t) fullShare ((rdat V c).after 0 t)
    ∗ owns (c : Thread nD τ) (st2_1 t) fullShare ((rdat V c).after 1 t)
    ∗ owns (c : Thread nD τ) (st2_2 t) fullShare ((rdat V c).after 2 t))

/-- The body at any point: the inputs' buffers hold their blocks, so `body_runs` applies; the invariant and what the core
    owes pass through unread. -/
theorem body_at_point (c : Dev nD) (t : Fin cfg2.N) :
    atCall V c t ⊢ wp frame (wpE (defs₀ (F := F)) Variants.none c none) Set.univ (bodyAt2 t) (fun _ => atReturn V c t) := by
  unfold atCall atReturn bodyAt2
  simp only [rdat_before_x, rdat_before_w]
  rw [show (rdat V c).Φ t.succ = (rdat V c).Φ t.castSucc from rfl,
    show (rdat V c).owesAt () t.succ = (rdat V c).owesAt () t.castSucc from rfl,
    rdat_after_x, rdat_after_w, rdat_after_o]
  iintro ⟨HΦ, Ho, ⟨%d0, H0⟩, ⟨%d1, H1⟩, ⟨%d2, H2⟩⟩
  iapply (body_runs c Set.univ _ _ _ _ _ _ _ (rowsOf V c 0 t) (rowsOf V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem duty (c : Dev nD) : BodyObligation (rdat (F := F) V c) (defs₀ (F := F)) Variants.none () Set.univ := fun t => by
  rw [bigSep_W2, bigSep_W2]
  exact body_at_point V c t

end Cert.KernelIdeal.Decode

end
-- ==== Proof.KI.Whole.lean ====
/-
  The whole program as nine items — three stretches of host operations, the first matrix product's region, two
  stretches, the second product's region, one stretch, the decoder's region — run from the launch memory.
  Y0 … Y9 are the contents of the core's unscoped buffers at the item boundaries: a stretch applies its operations
  (StableHlo.after), a region overwrites its one output array with what its grid's write-backs leave (arrAt … N) and
  changes nothing else. Each region is entered from "every unscoped buffer at the boundary's contents, the generator
  register at some state, nothing owed" and left at the same with the next boundary's contents; the decoder's two input
  windows stage one array, which is split into two half shares at entry and joined again at exit.
  `whole`: every weakly fair execution terminates, and then the result buffer holds `result m c` — the decoder's
  output array after its 64 write-backs — and every argument its launch contents.
-/
import proofs.«106708_j53764400611652_1_alg».proof.Proof.KI.Layer1
import proofs.«106708_j53764400611652_1_alg».proof.Proof.KI.Layer2
import proofs.«106708_j53764400611652_1_alg».proof.Proof.KI.Decode
import proofs.«106708_j53764400611652_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the item boundaries -/

/-- At launch. -/
abbrev Y0 : Dev nD → Valuation τ sig (Elt F) := fun c b => m (c, b)
/-- After the first stretch (edge lists with self-loops, degrees). -/
abbrev Y1 : Dev nD → Valuation τ sig (Elt F) := fun c => StableHlo.after hostOps0 (Y0 m c)
/-- After the masked inverse square root of the degrees. -/
abbrev Y2 : Dev nD → Valuation τ sig (Elt F) := fun c => StableHlo.after hostOps0_1 (Y1 m c)
/-- After the edge coefficients: the first product's region is entered here. -/
abbrev Y3 : Dev nD → Valuation τ sig (Elt F) := fun c => StableHlo.after hostOps0_2 (Y2 m c)
abbrev U3 : (c : Dev nD) → (b : Ref sig .tc) → Buf (Elt F) ((c : Thread nD τ).loc b) := fun c b => Y3 m c b
/-- The first product as its region leaves it. -/
def prod1 (c : Dev nD) : Buf (Elt F) ((c : Thread nD τ).loc main_v32) := (Layer1.rdat (U3 m) c).arrAt 2 cfg0.N
/-- After the first product's region. -/
def Y4 (c : Dev nD) : Valuation τ sig (Elt F) := Function.update (Y3 m c) main_v32 (prod1 m c)
abbrev U4 : (c : Dev nD) → (b : Ref sig .tc) → Buf (Elt F) ((c : Thread nD τ).loc b) := fun c b => Y4 m c b
/-- After the first layer's aggregation and bias. -/
abbrev Y5 : Dev nD → Valuation τ sig (Elt F) := fun c => StableHlo.after hostOps1 (Y4 m c)
/-- After the rectifier: the second product's region is entered here. -/
abbrev Y6 : Dev nD → Valuation τ sig (Elt F) := fun c => StableHlo.after hostOps1_1 (Y5 m c)
abbrev U6 : (c : Dev nD) → (b : Ref sig .tc) → Buf (Elt F) ((c : Thread nD τ).loc b) := fun c b => Y6 m c b
/-- The second product as its region leaves it. -/
def prod2 (c : Dev nD) : Buf (Elt F) ((c : Thread nD τ).loc main_v50) := (Layer2.rdat (U6 m) c).arrAt 2 cfg1.N
/-- After the second product's region. -/
def Y7 (c : Dev nD) : Valuation τ sig (Elt F) := Function.update (Y6 m c) main_v50 (prod2 m c)
abbrev U7 : (c : Dev nD) → (b : Ref sig .tc) → Buf (Elt F) ((c : Thread nD τ).loc b) := fun c b => Y7 m c b
/-- After the second layer's aggregation and bias: the decoder's region is entered here. -/
abbrev Y8 : Dev nD → Valuation τ sig (Elt F) := fun c => StableHlo.after hostOps2 (Y7 m c)
abbrev U8 : (c : Dev nD) → (b : Ref sig .tc) → Buf (Elt F) ((c : Thread nD τ).loc b) := fun c b => Y8 m c b
/-- The decoder's output as its region leaves it: the program's result. -/
def result (c : Dev nD) : Buf (Elt F) ((c : Thread nD τ).loc main_v67) := (Decode.rdat (U8 m) c).arrAt 2 cfg2.N
/-- At the end. -/
def Y9 (c : Dev nD) : Valuation τ sig (Elt F) := Function.update (Y8 m c) main_v67 (result m c)
abbrev U9 : (c : Dev nD) → (b : Ref sig .tc) → Buf (Elt F) ((c : Thread nD τ).loc b) := fun c b => Y9 m c b

theorem Y4_out (c : Dev nD) : Y4 m c main_v32 = prod1 m c := by unfold Y4; exact Function.update_self ..
theorem Y4_else (c : Dev nD) (r : Ref sig .tc) (h : r ≠ main_v32) : Y4 m c r = Y3 m c r := by
  unfold Y4; exact Function.update_of_ne (StableHlo.devRef_ne_of_ne h : (Proc.devRef .tc r : DevRef τ sig) ≠ Proc.devRef .tc main_v32) ..
theorem Y7_out (c : Dev nD) : Y7 m c main_v50 = prod2 m c := by unfold Y7; exact Function.update_self ..
theorem Y7_else (c : Dev nD) (r : Ref sig .tc) (h : r ≠ main_v50) : Y7 m c r = Y6 m c r := by
  unfold Y7; exact Function.update_of_ne (StableHlo.devRef_ne_of_ne h : (Proc.devRef .tc r : DevRef τ sig) ≠ Proc.devRef .tc main_v50) ..
theorem Y9_out (c : Dev nD) : Y9 m c main_v67 = result m c := by unfold Y9; exact Function.update_self ..
theorem Y9_else (c : Dev nD) (r : Ref sig .tc) (h : r ≠ main_v67) : Y9 m c r = Y8 m c r := by
  unfold Y9; exact Function.update_of_ne (StableHlo.devRef_ne_of_ne h : (Proc.devRef .tc r : DevRef τ sig) ≠ Proc.devRef .tc main_v67) ..

/-- A buffer that no stretch writes and that is no region's output ends as launched. -/
theorem untouched (c : Dev nD) (r : Ref sig .tc) (h0 : r ∉ hostOps0_W) (h1 : r ∉ hostOps0_1_W) (h2 : r ∉ hostOps0_2_W) (h3 : r ≠ main_v32)
    (h4 : r ∉ hostOps1_W) (h5 : r ∉ hostOps1_1_W) (h6 : r ≠ main_v50) (h7 : r ∉ hostOps2_W) (h8 : r ≠ main_v67) :
    Y9 m c r = m ((c : Thread nD τ).loc r) :=
  (Y9_else m c r h8).trans <| (StableHlo.after_of_writes_sub hostOps2 _ hostOps2_writes h7).trans <| (Y7_else m c r h6).trans <|
    (StableHlo.after_of_writes_sub hostOps1_1 _ hostOps1_1_writes h5).trans <| (StableHlo.after_of_writes_sub hostOps1 _ hostOps1_writes h4).trans <|
    (Y4_else m c r h3).trans <| (StableHlo.after_of_writes_sub hostOps0_2 _ hostOps0_2_writes h2).trans <|
    (StableHlo.after_of_writes_sub hostOps0_1 _ hostOps0_1_writes h1).trans <| (StableHlo.after_of_writes_sub hostOps0 _ hostOps0_writes h0).trans rfl

/-! ## The proof data family and the thread state -/

/-- Every pipeline's proof data, each over its region's entry contents. -/
def pdats : (p : Fin 3) → (c : Dev nD) → Dat τ (Elt F) Unit ℕ (UR sig nD τ) ℕ (Pipeline.pin (pcfgs (F := F)) adm p) c
  | ⟨0, _⟩ => fun c => Layer1.rdat (U3 m) c
  | ⟨1, _⟩ => fun c => Layer2.rdat (U6 m) c
  | ⟨2, _⟩ => fun c => Decode.rdat (U8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y9 m c) ∗ ∃ r, prngReg c r)

/-! ## The first product's region -/

theorem exit1 (c : Dev nD) (w : Fin cfg0.W) : (Layer1.rdat (U3 m) c).arrAt w cfg0.N = U4 m c (Pipeline.arrRef spec0 w) :=
  match w with
  | ⟨0, _⟩ => (((Layer1.rdat (U3 m) c).arrAt_in 0 rfl _).trans (Layer1.rdat_A (U3 m) c 0)).trans (Y4_else m c main_arg0 (by decide)).symm
  | ⟨1, _⟩ => (((Layer1.rdat (U3 m) c).arrAt_in 1 rfl _).trans (Layer1.rdat_A (U3 m) c 1)).trans (Y4_else m c main_arg2 (by decide)).symm
  | ⟨2, _⟩ => (Y4_out m c).symm
theorem rest1 (c : Dev nD) : ∀ b, b ∉ Finset.univ.image (Pipeline.arrRef spec0) → U4 m c b = U3 m c b :=
  fun b hb => Y4_else m c b fun e => hb (Finset.mem_image.mpr ⟨2, Finset.mem_univ _, e.symm⟩)

set_option backward.isDefEq.respectTransparency.types false in
/-- The first product's region over the thread state: entered at `Y3`, left at `Y4`. Its arrays are taken out of the
    unscoped buffers and put back at the exit contents; the generator register goes into the invariant and comes back. -/
def reg1 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer1.duty (U3 m) c).loose
  hwaits := Pipeline.hwaits_of_owed_zero _ _ _ _ L lv 0 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second product's region -/

theorem exit2 (c : Dev nD) (w : Fin cfg1.W) : (Layer2.rdat (U6 m) c).arrAt w cfg1.N = U7 m c (Pipeline.arrRef spec1 w) :=
  match w with
  | ⟨0, _⟩ => (((Layer2.rdat (U6 m) c).arrAt_in 0 rfl _).trans (Layer2.rdat_A (U6 m) c 0)).trans (Y7_else m c main_v49 (by decide)).symm
  | ⟨1, _⟩ => (((Layer2.rdat (U6 m) c).arrAt_in 1 rfl _).trans (Layer2.rdat_A (U6 m) c 1)).trans (Y7_else m c main_arg4 (by decide)).symm
  | ⟨2, _⟩ => (Y7_out m c).symm
theorem rest2 (c : Dev nD) : ∀ b, b ∉ Finset.univ.image (Pipeline.arrRef spec1) → U7 m c b = U6 m c b :=
  fun b hb => Y7_else m c b fun e => hb (Finset.mem_image.mpr ⟨2, Finset.mem_univ _, e.symm⟩)

set_option backward.isDefEq.respectTransparency.types false in
/-- The second product's region over the thread state: entered at `Y6`, left at `Y7`. Its arrays are taken out of the
    unscoped buffers and put back at the exit contents; the generator register goes into the invariant and comes back. -/
def reg2 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer2.duty (U6 m) c).loose
  hwaits := Pipeline.hwaits_of_owed_zero _ _ _ _ L lv 1 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (exit2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The decoder's region -/

/-- The decoder's arrays are two buffers: the embeddings, staged by both input windows, and the result. -/
theorem dec_arrays : (Finset.univ.image (Pipeline.arrRef spec2) : Finset (Ref sig .tc)) = {main_v66, main_v67} := by decide

/-- The decoder's windowed arrays at contents read off a valuation ARE the two buffers behind them at those contents:
    the embeddings' buffer at the full share is its left half, held by the first window, beside its right half, held by
    the second. -/
theorem dec_arrays_bufs (V : (c : Dev nD) → (b : Ref sig .tc) → Buf (Elt F) ((c : Thread nD τ).loc b)) (c : Dev nD)
    (Vc : (b : Ref sig .tc) → Buf (Elt F) ((c : Thread nD τ).loc b))
    (G : (w : Fin cfg2.W) → Buf (Elt F) ((cfg2.win w).arr.view.loc (c.tc : Thread nD τ))) (hG : ∀ w, G w = Vc (Pipeline.arrRef spec2 w)) :
    ((Decode.rdat V c).arrays G : sProp 𝕄) = Pipeline.arrBufs (Ix := Unit) (Name := ℕ) (U := UR sig nD τ) (Lvl := ℕ) spec2 c Vc := by
  unfold Dat.arrays Pipeline.arrBufs
  rw [bigSep_W2, dec_arrays, bigSep_insert (by decide), bigSep_singleton, hG 0, hG 1, hG 2,
    (arr_whole2 0).set_eq_univ, (arr_whole2 2).set_eq_univ]
  show iprop((((c : Thread nD τ).loc main_v66) ↦{fullShare.left} Vc main_v66) ∗ (((c : Thread nD τ).loc main_v66) ↦{fullShare.right} Vc main_v66)
      ∗ (((c : Thread nD τ).loc main_v67) ↦{fullShare} Vc main_v67)) = _
  have halves : ((((c : Thread nD τ).loc main_v66) ↦{fullShare} Vc main_v66 : sProp 𝕄))
      = iprop((((c : Thread nD τ).loc main_v66) ↦{fullShare.left} Vc main_v66) ∗ (((c : Thread nD τ).loc main_v66) ↦{fullShare.right} Vc main_v66)) :=
    equiv_iff.mp ⟨(pointsTo_share (PosShare.mem_left_op_right fullShare)).mp, (pointsTo_share (PosShare.mem_left_op_right fullShare)).mpr⟩
  rw [halves]
  exact equiv_iff.mp ⟨Idealize.SL.BI.sep_assoc', Idealize.SL.BI.sep_assoc⟩

theorem entry3 (c : Dev nD) (w : Fin cfg2.W) : (Decode.rdat (U8 m) c).arrAt w 0 = U8 m c (Pipeline.arrRef spec2 w) :=
  Decode.rdat_A (U8 m) c w
theorem exit3 (c : Dev nD) (w : Fin cfg2.W) : (Decode.rdat (U8 m) c).arrAt w cfg2.N = U9 m c (Pipeline.arrRef spec2 w) :=
  match w with
  | ⟨0, _⟩ => (((Decode.rdat (U8 m) c).arrAt_in 0 rfl _).trans (Decode.rdat_A (U8 m) c 0)).trans (Y9_else m c main_v66 (by decide)).symm
  | ⟨1, _⟩ => (((Decode.rdat (U8 m) c).arrAt_in 1 rfl _).trans (Decode.rdat_A (U8 m) c 1)).trans (Y9_else m c main_v66 (by decide)).symm
  | ⟨2, _⟩ => (Y9_out m c).symm
theorem rest3 (c : Dev nD) : ∀ b, b ∉ Finset.univ.image (Pipeline.arrRef spec2) → U9 m c b = U8 m c b :=
  fun b hb => Y9_else m c b fun e => hb (Finset.mem_image.mpr ⟨2, Finset.mem_univ _, e.symm⟩)

/-- Entering: every unscoped buffer at `Y8` is the decoder's arrays at their entry contents beside the other buffers. -/
theorem dec_enter (c : Dev nD) :
    (StableHlo.held (c : Thread nD τ) (Pipeline.ucRefs τ sig) (Y8 m c) : sProp 𝕄)
      = iprop((Decode.rdat (U8 m) c).arrays ((Decode.rdat (U8 m) c).arrAt · 0)
          ∗ Pipeline.unscopedRest (Ix := Unit) (Name := ℕ) (U := UR sig nD τ) (Lvl := ℕ) spec2 c (U8 m c)) := by
  rw [← Pipeline.unscopedBufs_held c (Y8 m c), Pipeline.unscopedBufs_split₀ (Pipeline.pin (pcfgs (F := F)) adm) 2 winFacts₀2.arr_unscoped c (U8 m c),
    dec_arrays_bufs (U8 m) c (U8 m c) _ (entry3 m c)]
  rfl

/-- Leaving: the arrays at their final contents beside the other buffers are every unscoped buffer at `Y9`. -/
theorem dec_leave (c : Dev nD) :
    iprop((Decode.rdat (U8 m) c).arrays ((Decode.rdat (U8 m) c).arrAt · cfg2.N)
          ∗ Pipeline.unscopedRest (Ix := Unit) (Name := ℕ) (U := UR sig nD τ) (Lvl := ℕ) spec2 c (U8 m c))
      ⊢ (StableHlo.held (c : Thread nD τ) (Pipeline.ucRefs τ sig) (Y9 m c) : sProp 𝕄) := by
  rw [← Pipeline.unscopedBufs_held c (Y9 m c), Pipeline.unscopedBufs_split₀ (Pipeline.pin (pcfgs (F := F)) adm) 2 winFacts₀2.arr_unscoped c (U9 m c),
    dec_arrays_bufs (U8 m) c (U9 m c) _ (exit3 m c)]
  refine sep_mono .rfl (Entails.of_eq ?_)
  unfold Pipeline.unscopedRest
  exact bigSep_congr fun b hb => by rw [rest3 m c b (Finset.mem_sdiff.mp hb).2]

set_option backward.isDefEq.respectTransparency.types false in
/-- The decoder's region over the thread state: entered at `Y8`, left at `Y9`, the program's last item. -/
def reg3 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Decode.duty (U8 m) c).loose
  hwaits := Pipeline.hwaits_of_owed_zero _ _ _ _ L lv 2 fun _ _ => rfl
  pre c := iprop(StableHlo.held (c : Thread nD τ) (Pipeline.ucRefs τ sig) (Y8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Entails.of_eq (dec_enter m c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (U8 m c))
        ⊢ (StableHlo.held (c : Thread nD τ) (Pipeline.ucRefs τ sig) (Y9 m c) : sProp 𝕄) := dec_leave m c
    iintro ⟨Ha, HO, HY, Hrest⟩
    imodintro
    isplitl [Ha Hrest HY]
    · isplitl [Ha Hrest]
      · iapply hjoin
        isplitl [Ha]
        · iexact Ha
        · iexact Hrest
      iexact HY
    unfold Pipeline.Dat.owesAt Pipeline.owesWithin
    icases HO with ⟨%W, -, HO⟩; iexists W; iexact HO

/-! ## The program as its items, and the run -/

/-- The nine items in order. -/
abbrev segs : List (Pipeline.Seg (pcfgs (F := F)) adm (pdats m) () defs₀ 𝒱₀ L lv) :=
  [ .host (hseg hostOps0 hostOps0_sub hostOps0_fresh (Y0 m)),
    .host (hseg hostOps0_1 hostOps0_1_sub hostOps0_1_fresh (Y1 m)),
    .host (hseg hostOps0_2 hostOps0_2_sub hostOps0_2_fresh (Y2 m)),
    .region (reg1 m),
    .host (hseg hostOps1 hostOps1_sub hostOps1_fresh (Y4 m)),
    .host (hseg hostOps1_1 hostOps1_1_sub hostOps1_1_fresh (Y5 m)),
    .region (reg2 m),
    .host (hseg hostOps2 hostOps2_sub hostOps2_fresh (Y7 m)),
    .region (reg3 m) ]
/-- The program IS the run of the items. -/
theorem main_run (c : Dev nD) : main (F := F) c = Pipeline.Seg.run (segs m) := (main_chain c).trans (by chain_rfl)

set_option backward.isDefEq.respectTransparency.types false in
/-- From any memory with zero counters, every weakly fair execution of the program terminates, nothing faulting; the
    result buffer then holds what the decoder's write-backs left and every argument its launch contents. -/
theorem whole : θ_run defs (onTc (τ := τ) (main (F := F))) ⟨m, fun _ => 0, ρ⟩ (fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y9 m c b)
    (hfin := fun c s' => by
      iintro ⟨⟨Hh, -⟩, HSI⟩
      unfold StableHlo.held
      imodintro
      iapply (pointsTo_read_all (Pipeline.ucRefs τ sig) (fun b => (((c : Thread nD τ)).1, b)) (Y9 m c) s')
      isplitl [Hh] <;> iassumption)
    (hQ := fun s h c =>
      ⟨(h c _ (mem_uc main_v67 (by decide))).trans (Y9_out m c),
       (h c _ (mem_uc main_arg0 (by decide))).trans (untouched m c main_arg0 (by decide) (by decide) (by decide) (by decide) (by decide) (by decide) (by decide) (by decide) (by decide)),
       (h c _ (mem_uc main_arg1 (by decide))).trans (untouched m c main_arg1 (by decide) (by decide) (by decide) (by decide) (by decide) (by decide) (by decide) (by decide) (by decide)),
       (h c _ (mem_uc main_arg2 (by decide))).trans (untouched m c main_arg2 (by decide) (by decide) (by decide) (by decide) (by decide) (by decide) (by decide) (by decide) (by decide)),
       (h c _ (mem_uc main_arg3 (by decide))).trans (untouched m c main_arg3 (by decide) (by decide) (by decide) (by decide) (by decide) (by decide) (by decide) (by decide) (by decide)),
       (h c _ (mem_uc main_arg4 (by decide))).trans (untouched m c main_arg4 (by decide) (by decide) (by decide) (by decide) (by decide) (by decide) (by decide) (by decide) (by decide)),
       (h c _ (mem_uc main_arg5 (by decide))).trans (untouched m c main_arg5 (by decide) (by decide) (by decide) (by decide) (by decide) (by decide) (by decide) (by decide) (by decide))⟩)

end Cert.KernelIdeal.Whole

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KI.Layer1Value.lean ====
/-
  What the first product's region leaves in its output array, at the exact instance: the 8192×256 array whose entry
  (r, j) is Σₖ x(r, k) · W1(k, j). Point t of the grid writes rows 1024·t … 1024·t+1023; an entry of its tile is the body's
  product of rows of x's block with columns of W1 (the change of format on the way in is the identity on extended reals, the
  accumulator is zero), and a block's entry (p, k) is the array's entry (1024·t + p, k). The eight tiles cover the array.
-/
import proofs.«106708_j53764400611652_1_alg».proof.Proof.KI.Layer1
import proofs.«106708_j53764400611652_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer1Value

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product of an 8192×512 array with a 512×256 one on the extended reals, at row `r` and column `j`. -/
def entry (x : S8192x512.Idx → EReal) (w : S512x256.Idx → EReal) (r : Fin 8192) (j : Fin 256) : EReal :=
  ∑ k : Fin 512, x (ix2 r k) * w (ix2 k j)
/-- The whole product. -/
def product (x : S8192x512.Idx → EReal) (w : S512x256.Idx → EReal) : S8192x256.Idx → EReal := fun i => entry x w (i 0) (i 1)

/-- An entry of the tile the body stores is the sum over the contracted axis of its two loaded blocks. -/
theorem tile_at (x0 : Vec Ideal S1024x512 .f32) (x1 : Vec Ideal S512x256 .f32) (p : Fin 1024) (q : Fin 256) :
    Layer1.tileOut x0 x1 (ix2 p q) = ∑ k : Fin 512, x0 (ix2 p k) * x1 (ix2 k q) := by
  unfold Layer1.tileOut
  rw [View.canon_unit_zero origin]
  simp only [View.ld_unit_zero (S := S1024x512) origin, View.ld_unit_zero (S := S512x256) origin]
  unfold k0_pay1
  exact Cert.Lib.PlainDot.matmul_zero_apply (M := 1024) (K := 512) (N := 256) none (truncf .bf16 x0 bitsLt_bf16_f32) (truncf .bf16 x1 bitsLt_bf16_f32) p q

/-- The index maps over the grid's eight points: the rows of x move with the output's rows, nothing else moves. -/
theorem maps : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 7 :=
  (by decide +kernel : ∀ t : Fin grid0.N, _)
/-- Every block of rows is some point's. -/
theorem onto : ∀ q0 : Fin 8, ∃ t : Fin cfg0.N, win0_2.index t = ![q0.val, 0] :=
  (by decide +kernel : ∀ q0 : Fin 8, ∃ t : Fin grid0.N, win0_2.index t = ![q0.val, 0])

/-- The two operand arrays as the region finds them, typed as arrays of extended reals. -/
abbrev xs (c : Dev nD) : S8192x512.Idx → EReal := V c main_arg0
abbrev ws (c : Dev nD) : S512x256.Idx → EReal := V c main_arg2

/-- What point `t` writes back is block `t` of the product of the arrays as the region finds them. -/
theorem written (c : Dev nD) (t : Fin cfg0.N) :
    (Layer1.rdat V c).flushed 2 t = ((cfg0.win 2).blk t).view.read (Elt Ideal) (product (xs V c) (ws V c)) := by
  show (cfg0.win 2).cut (grid0.coords t) ((Layer1.rdat V c).after 2 t) = _
  rw [Layer1.rdat_after_o]
  obtain ⟨e0, e1, e2, e3, e4, e5⟩ := maps t
  funext j
  obtain ⟨p, q, rfl⟩ : ∃ (p : Fin 1024) (q : Fin 256), j = ix2 p q := ⟨j 0, j 1, eq_ix2 j⟩
  show Layer1.tileOut (Layer1.rowsOf V c 0 t) (Layer1.rowsOf V c 1 t) (ix2 p q)
    = product (xs V c) (ws V c) (((cfg0.win 2).blk t).view.emb (ix2 p q))
  rw [tile_at]
  unfold product entry
  refine Finset.sum_congr rfl fun k _ => ?_
  show xs V c (((cfg0.win 0).blk t).view.emb (ix2 p k)) * ws V c (((cfg0.win 1).blk t).view.emb (ix2 k q))
    = xs V c (ix2 ((((cfg0.win 2).blk t).view.emb (ix2 p q)) 0) k) * ws V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [h0, h1]
  rfl

/-- An index of the array is in point `t`'s block iff each coordinate is in the block's range. -/
theorem in_block (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v32).slice (win0_2.rect t)).set ↔ _
  rw [View.set_slice_whole, Rect.mem_set_unit]
  exact Iff.rfl

/-- Every entry of the array is written back by some point. -/
theorem covered (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The output array after the region is the product of the two operand arrays as the region finds them. -/
theorem left (c : Dev nD) : (Layer1.rdat V c).arrAt 2 cfg0.N = product (xs V c) (ws V c) :=
  (Layer1.rdat V c).arrAt_eq_of_cover 2 (product (xs V c) (ws V c)) (fun t _ => written V c t) covered

end Cert.KernelIdeal.Layer1Value

end
-- ==== Proof.KI.Layer2Value.lean ====
/-
  What the second product's region leaves in its output array, at the exact instance: the 8192×128 array whose entry
  (r, j) is Σₖ h(r, k) · W2(k, j), h the rectified first layer as the region finds it. The same development as for the first
  product, at this layer's shapes (the body's shape cast of the loaded block to its own shape is the identity).
-/
import proofs.«106708_j53764400611652_1_alg».proof.Proof.KI.Layer2
import proofs.«106708_j53764400611652_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer2Value

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product of an 8192×256 array with a 256×128 one on the extended reals, at row `r` and column `j`. -/
def entry (x : S8192x256.Idx → EReal) (w : S256x128.Idx → EReal) (r : Fin 8192) (j : Fin 128) : EReal :=
  ∑ k : Fin 256, x (ix2 r k) * w (ix2 k j)
/-- The whole product. -/
def product (x : S8192x256.Idx → EReal) (w : S256x128.Idx → EReal) : S8192x128.Idx → EReal := fun i => entry x w (i 0) (i 1)

/-- An entry of the tile the body stores is the sum over the contracted axis of its two loaded blocks. -/
theorem tile_at (x0 : Vec Ideal S1024x256 .f32) (x1 : Vec Ideal S256x128 .f32) (p : Fin 1024) (q : Fin 128) :
    Layer2.tileOut x0 x1 (ix2 p q) = ∑ k : Fin 256, x0 (ix2 p k) * x1 (ix2 k q) := by
  unfold Layer2.tileOut
  rw [View.canon_unit_zero origin]
  simp only [View.ld_unit_zero (S := S1024x256) origin, View.ld_unit_zero (S := S256x128) origin]
  unfold k1_pay1
  rw [shapeCast_self]
  exact Cert.Lib.PlainDot.matmul_zero_apply (M := 1024) (K := 256) (N := 128) none (truncf .bf16 x0 bitsLt_bf16_f32) (truncf .bf16 x1 bitsLt_bf16_f32) p q

/-- The index maps over the grid's eight points: the rows of x move with the output's rows, nothing else moves. -/
theorem maps : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) ≤ 7 :=
  (by decide +kernel : ∀ t : Fin grid1.N, _)
/-- Every block of rows is some point's. -/
theorem onto : ∀ q0 : Fin 8, ∃ t : Fin cfg1.N, win1_2.index t = ![q0.val, 0] :=
  (by decide +kernel : ∀ q0 : Fin 8, ∃ t : Fin grid1.N, win1_2.index t = ![q0.val, 0])

/-- The two operand arrays as the region finds them, typed as arrays of extended reals. -/
abbrev xs (c : Dev nD) : S8192x256.Idx → EReal := V c main_v49
abbrev ws (c : Dev nD) : S256x128.Idx → EReal := V c main_arg4

/-- What point `t` writes back is block `t` of the product of the arrays as the region finds them. -/
theorem written (c : Dev nD) (t : Fin cfg1.N) :
    (Layer2.rdat V c).flushed 2 t = ((cfg1.win 2).blk t).view.read (Elt Ideal) (product (xs V c) (ws V c)) := by
  show (cfg1.win 2).cut (grid1.coords t) ((Layer2.rdat V c).after 2 t) = _
  rw [Layer2.rdat_after_o]
  obtain ⟨e0, e1, e2, e3, e4, e5⟩ := maps t
  funext j
  obtain ⟨p, q, rfl⟩ : ∃ (p : Fin 1024) (q : Fin 128), j = ix2 p q := ⟨j 0, j 1, eq_ix2 j⟩
  show Layer2.tileOut (Layer2.rowsOf V c 0 t) (Layer2.rowsOf V c 1 t) (ix2 p q)
    = product (xs V c) (ws V c) (((cfg1.win 2).blk t).view.emb (ix2 p q))
  rw [tile_at]
  unfold product entry
  refine Finset.sum_congr rfl fun k _ => ?_
  show xs V c (((cfg1.win 0).blk t).view.emb (ix2 p k)) * ws V c (((cfg1.win 1).blk t).view.emb (ix2 k q))
    = xs V c (ix2 ((((cfg1.win 2).blk t).view.emb (ix2 p q)) 0) k) * ws V c (ix2 k ((((cfg1.win 2).blk t).view.emb (ix2 p q)) 1))
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 256 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  rw [h0, h1]
  rfl

/-- An index of the array is in point `t`'s block iff each coordinate is in the block's range. -/
theorem in_block (t : Fin cfg1.N) (i : S8192x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v50).slice (win1_2.rect t)).set ↔ _
  rw [View.set_slice_whole, Rect.mem_set_unit]
  exact Iff.rfl

/-- Every entry of the array is written back by some point. -/
theorem covered (i : S8192x128.Idx) : ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- The output array after the region is the product of the two operand arrays as the region finds them. -/
theorem left (c : Dev nD) : (Layer2.rdat V c).arrAt 2 cfg1.N = product (xs V c) (ws V c) :=
  (Layer2.rdat V c).arrAt_eq_of_cover 2 (product (xs V c) (ws V c)) (fun t _ => written V c t) covered

end Cert.KernelIdeal.Layer2Value

end
-- ==== Proof.LibDotNT.lean ====
/-
  A matrix times the transpose of another, read at an entry, on the extended reals.

  For the dimension numbers of an M×K by N×K product (DotDims.transposedRhs M K N: contract the second axis of BOTH
  operands, no batch axis), the sum over the contraction index of the operands' products at output entry (p, j) is
  ∑ k, l (p, k) * r (j, k): the contraction index is its one coordinate k, the left operand is read at row p,
  column k, the right at row j, column k. From it: a vector-unit matrix product into the zero accumulator
  (matmul_zero_apply) and the host's dot_general (dotGeneral_apply) at (p, j). A printed program's own record of these
  dimension numbers is DotDims.transposedRhs of its literal sizes by rfl.
-/
import Idealize.ShloMosaic.Lib.ValueIdx
import Idealize.ShloMosaic.PureOps.Ideal.Laws

noncomputable section

open scoped BigOperators

namespace Cert.Lib.DotNT

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, j) and contraction coordinate k is (p, k). -/
theorem lhsIdx_nt (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output (p, j) and contraction coordinate k is (j, k). -/
theorem rhsIdx_nt (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output (p, j) is the sum over the contracted coordinate. -/
theorem sum_nt (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_nt, rhsIdx_nt]

/-- A matrix product on the vector unit into the zero accumulator, at entry (p, j). -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_nt l r p j

/-- The host's dot_general at entry (p, j), whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_nt l r p j

end Cert.Lib.DotNT

end
-- ==== Proof.KI.DecodeValue.lean ====
/-
  What the decoder's region leaves in its output array, at the exact instance: the 8192×8192 array whose entry (r, s) is
  the logistic function of Σₖ z(r, k) · z(s, k), z the embeddings as the region finds them. Point (i, j) of the 8×8 grid writes
  the tile of rows 1024·i … and columns 1024·j …; an entry (p, q) of that tile is the body's logistic of the product of row
  p of its first block with row q of its second (the changes of format and the casts of a block to its own shape are the
  identity, the accumulator is zero), and those rows are rows 1024·i + p and 1024·j + q of z. The 64 tiles cover the array.
-/
import proofs.«106708_j53764400611652_1_alg».proof.Proof.KI.Decode
import proofs.«106708_j53764400611652_1_alg».proof.Proof.LibDotNT
import Idealize.ShloMosaic.Lib.Pipeline.Value
import Idealize.ShloMosaic.Lib.ValueIdx
import Idealize.ShloMosaic.PureOps.Ideal.Laws

set_option maxRecDepth 16384

noncomputable section

namespace Cert.KernelIdeal.DecodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The logistic function of the inner product of rows `r` and `s` of an 8192×128 array of extended reals. -/
def entry (z : S8192x128.Idx → EReal) (r s : Fin 8192) : EReal :=
  Ideal.logistic (∑ k : Fin 128, z (ix2 r k) * z (ix2 s k))
/-- The whole decoded array. -/
def decoded (z : S8192x128.Idx → EReal) : S8192x8192.Idx → EReal := fun i => entry z (i 0) (i 1)

/-- An entry of the tile the body stores is the logistic function of the inner product of a row of each loaded block. -/
theorem tile_at (x0 : Vec Ideal S1024x128 .f32) (x1 : Vec Ideal S1024x128 .f32) (p : Fin 1024) (q : Fin 1024) :
    Decode.tileOut x0 x1 (ix2 p q) = Ideal.logistic (∑ k : Fin 128, x0 (ix2 p k) * x1 (ix2 q k)) := by
  unfold Decode.tileOut
  rw [View.canon_unit_zero origin]
  simp only [View.ld_unit_zero (S := S1024x128) origin]
  unfold k2_pay1
  rw [shapeCast_self, shapeCast_self]
  exact congrArg Ideal.logistic
    (Cert.Lib.DotNT.matmul_zero_apply (M := 1024) (K := 128) (N := 1024) none (truncf .bf16 x0 bitsLt_bf16_f32) (truncf .bf16 x1 bitsLt_bf16_f32) p q)

/-- The index maps over the grid's 64 points: the first window's rows move with the output's rows, the second window's
    rows with the output's columns. -/
theorem maps : ∀ t : Fin cfg2.N, win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)
/-- Every tile is some point's. -/
theorem onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- The embeddings as the region finds them, typed as an array of extended reals. -/
abbrev zs (c : Dev nD) : S8192x128.Idx → EReal := V c main_v66

/-- What point `t` writes back is tile `t` of the decoded array of the embeddings as the region finds them. -/
theorem written (c : Dev nD) (t : Fin cfg2.N) :
    (Decode.rdat V c).flushed 2 t = ((cfg2.win 2).blk t).view.read (Elt Ideal) (decoded (zs V c)) := by
  show (cfg2.win 2).cut (grid2.coords t) ((Decode.rdat V c).after 2 t) = _
  rw [Decode.rdat_after_o]
  obtain ⟨e0, e1, e2, e3, e4, e5⟩ := maps t
  funext j
  obtain ⟨p, q, rfl⟩ : ∃ (p : Fin 1024) (q : Fin 1024), j = ix2 p q := ⟨j 0, j 1, eq_ix2 j⟩
  show Decode.tileOut (Decode.rowsOf V c 0 t) (Decode.rowsOf V c 1 t) (ix2 p q)
    = decoded (zs V c) (((cfg2.win 2).blk t).view.emb (ix2 p q))
  rw [tile_at]
  unfold decoded entry
  refine congrArg Ideal.logistic (Finset.sum_congr rfl fun k _ => ?_)
  show zs V c (((cfg2.win 0).blk t).view.emb (ix2 p k)) * zs V c (((cfg2.win 1).blk t).view.emb (ix2 q k))
    = zs V c (ix2 ((((cfg2.win 2).blk t).view.emb (ix2 p q)) 0) k) * zs V c (ix2 ((((cfg2.win 2).blk t).view.emb (ix2 p q)) 1) k)
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 128 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 128 + 1 * k.val = k.val; omega
  rw [h0, h1]
  rfl

/-- An index of the array is in point `t`'s tile iff each coordinate is in the tile's range. -/
theorem in_block (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v67).slice (win2_2.rect t)).set ↔ _
  rw [View.set_slice_whole, Rect.mem_set_unit]
  exact Iff.rfl

/-- Every entry of the array is written back by some point. -/
theorem covered (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [in_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after the region is the decoded array of the embeddings as the region finds them. -/
theorem left (c : Dev nD) : (Decode.rdat V c).arrAt 2 cfg2.N = decoded (zs V c) :=
  (Decode.rdat V c).arrAt_eq_of_cover 2 (decoded (zs V c)) (fun t _ => written V c t) covered

end Cert.KernelIdeal.DecodeValue

end
-- ==== Proof.Spec.lean ====
/-
  The two-layer graph convolution and its decoder as named pure functions of the argument arrays, written once, so that both
  programs can be stated against the same terms and the host chain they share is never opened.
  For an edge list e (2 × 262144 endpoints): tails e / heads e are its two rows, each followed by 0 … 8191 (a self-loop per
  node); degrees e counts heads; invSqrt e is d ↦ d^(-1/2) where d > 0 (of max d 1e-12) and 0 elsewhere; weights e is the
  product of invSqrt at an edge's two endpoints (negative endpoints wrapped by 8192, as the gather's index arithmetic does).
  gather-scale-scatter: agg256 / agg128 take a node array p, gather its rows at the tails, scale by the weights, add them up at
  the heads and add the bias; hidden is the first layer rectified; decode z is 1 / (1 + exp (−(z·zᵀ))) as the host spells it;
  network composes them with the host's matrix products.
-/
import proofs.«106708_j53764400611652_1_alg».proof.Proof.Gen.ReferenceIdeal

noncomputable section

namespace Cert.ReferenceIdeal.Spec

open Cert.ReferenceIdeal Cert.ReferenceIdeal.Facts₀ Cert.ReferenceIdeal.Facts Idealize.ShloMosaic

variable {F : FTy → Type} [FloatOps F]

/-- The edges' tails: the first row of the edge list, then every node once. -/
def tails (e : (⟨S2x262144, .i32⟩ : BufTy).Contents (Elt F)) : (⟨S270336, .i32⟩ : BufTy).Contents (Elt F) :=
  concatenate S270336 0 [⟨S262144, (shapeCast _ (extractStridedSlice S1x262144 ![0, 0] e slices_S2x262144_S1x262144_0_0) shapeCasts_S1x262144_S262144)⟩, ⟨S8192, (iotaInDim S8192 32 0)⟩] concatenates_S262144_S8192_S270336_d0
/-- The edges' heads: the second row, then every node once. -/
def heads (e : (⟨S2x262144, .i32⟩ : BufTy).Contents (Elt F)) : (⟨S270336, .i32⟩ : BufTy).Contents (Elt F) :=
  concatenate S270336 0 [⟨S262144, (shapeCast _ (extractStridedSlice S1x262144 ![1, 0] e slices_S2x262144_S1x262144_1_0) shapeCasts_S1x262144_S262144)⟩, ⟨S8192, (iotaInDim S8192 32 0)⟩] concatenates_S262144_S8192_S270336_d0
/-- A negative endpoint counts from the end. -/
def wrapped (v : (⟨S270336, .i32⟩ : BufTy).Contents (Elt F)) : (⟨S270336, .i32⟩ : BufTy).Contents (Elt F) :=
  select (cmpi .slt v (broadcastInDim S270336 ![] bcast_S_S270336 (constantI S_ 32 0#32))) (addi v (broadcastInDim S270336 ![] bcast_S_S270336 (constantI S_ 32 8192#32))) v
/-- The number of edges into each node. -/
def degrees (e : (⟨S2x262144, .i32⟩ : BufTy).Contents (Elt F)) : (⟨S8192, .f32⟩ : BufTy).Contents (Elt F) :=
  Host.scatterAdd scatter_S8192_S270336x1_S270336_n_0_0_1 (broadcastInDim S8192 ![] bcast_S_S8192 (constant S_ .f32 0x00000000#32)) (broadcastInDim S270336x1 ![0] bcast_S270336_S270336x1_0 (heads (F := F) e)) (broadcastInDim S270336 ![] bcast_S_S270336 (constant S_ .f32 0x3F800000#32))
/-- d ↦ d^(-1/2) on the positive degrees, 0 on the others. -/
def invSqrt (e : (⟨S2x262144, .i32⟩ : BufTy).Contents (Elt F)) : (⟨S8192, .f32⟩ : BufTy).Contents (Elt F) :=
  select (cmpf (F := F) .ogt (degrees e) (broadcastInDim S8192 ![] bcast_S_S8192 (constant S_ .f32 0x00000000#32))) (Host.rsqrt (maximumf (degrees e) (broadcastInDim S8192 ![] bcast_S_S8192 (constant S_ .f32 0x2B8CBCCC#32)))) (broadcastInDim S8192 ![] bcast_S_S8192 (id (constant S_ .f32 0x00000000#32)))
/-- An edge's weight: the product of `invSqrt` at its two endpoints. -/
def weights (e : (⟨S2x262144, .i32⟩ : BufTy).Contents (Elt F)) : (⟨S270336, .f32⟩ : BufTy).Contents (Elt F) :=
  mulf (Host.gather gather_S8192_S270336x1_S270336_n_0_n_n_0_1_1 (invSqrt e) (broadcastInDim S270336x1 ![0] bcast_S270336_S270336x1_0 (wrapped (F := F) (tails (F := F) e))))
    (Host.gather gather_S8192_S270336x1_S270336_n_0_n_n_0_1_1 (invSqrt e) (broadcastInDim S270336x1 ![0] bcast_S270336_S270336x1_0 (wrapped (F := F) (heads (F := F) e))))

/-- Gather rows at the tails, scale by the weights, add up at the heads, add the bias: 256 columns. -/
def agg256 (p : (⟨S8192x256, .f32⟩ : BufTy).Contents (Elt F)) (e : (⟨S2x262144, .i32⟩ : BufTy).Contents (Elt F))
    (b : (⟨S256, .f32⟩ : BufTy).Contents (Elt F)) : (⟨S8192x256, .f32⟩ : BufTy).Contents (Elt F) :=
  addf (Host.scatterAdd scatter_S8192x256_S270336x1_S270336x256_1_0_0_1 (broadcastInDim S8192x256 ![] bcast_S_S8192x256 (constant S_ .f32 0x00000000#32)) (broadcastInDim S270336x1 ![0] bcast_S270336_S270336x1_0 (heads (F := F) e))
      (mulf (Host.gather gather_S8192x256_S270336x1_S270336x256_1_0_n_n_0_1_1256 p (broadcastInDim S270336x1 ![0] bcast_S270336_S270336x1_0 (wrapped (F := F) (tails (F := F) e))))
        (broadcastInDim S270336x256 ![0, 1] bcast_S270336x1_S270336x256_0_1 (broadcastInDim S270336x1 ![0] bcast_S270336_S270336x1_0 (weights e)))))
    (broadcastInDim S8192x256 ![0, 1] bcast_S1x256_S8192x256_0_1 (broadcastInDim S1x256 ![1] bcast_S256_S1x256_1 b))
/-- The first layer's output, rectified. -/
def hidden (p : (⟨S8192x256, .f32⟩ : BufTy).Contents (Elt F)) (e : (⟨S2x262144, .i32⟩ : BufTy).Contents (Elt F))
    (b : (⟨S256, .f32⟩ : BufTy).Contents (Elt F)) : (⟨S8192x256, .f32⟩ : BufTy).Contents (Elt F) :=
  maximumf (agg256 p e b) (broadcastInDim S8192x256 ![] bcast_S_S8192x256 (constant S_ .f32 0x00000000#32))
/-- The same aggregation with 128 columns: the embeddings. -/
def agg128 (p : (⟨S8192x128, .f32⟩ : BufTy).Contents (Elt F)) (e : (⟨S2x262144, .i32⟩ : BufTy).Contents (Elt F))
    (b : (⟨S128, .f32⟩ : BufTy).Contents (Elt F)) : (⟨S8192x128, .f32⟩ : BufTy).Contents (Elt F) :=
  addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (heads (F := F) e))
      (mulf (Host.gather gather_S8192x128_S270336x1_S270336x128_1_0_n_n_0_1_1128 p (broadcastInDim S270336x1 ![0] bcast_S270336_S270336x1_0 (wrapped (F := F) (tails (F := F) e))))
        (broadcastInDim S270336x128 ![0, 1] bcast_S270336x1_S270336x128_0_1 (broadcastInDim S270336x1 ![0] bcast_S270336_S270336x1_0 (weights e)))))
    (broadcastInDim S8192x128 ![0, 1] bcast_S1x128_S8192x128_0_1 (broadcastInDim S1x128 ![1] bcast_S128_S1x128_1 b))
/-- The decoder as the host spells it: 1 / (1 + exp (−(z · zᵀ))). -/
def decode (z : (⟨S8192x128, .f32⟩ : BufTy).Contents (Elt F)) : (⟨S8192x8192, .f32⟩ : BufTy).Contents (Elt F) :=
  Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x128_S128x8192_S8192x8192_1_0_0_1_n_n none z (transpose S128x8192 [1, 0] z transposes_S8192x128_S128x8192_1_0)))))
/-- The whole network with the host's matrix products. -/
def network (x : (⟨S8192x512, .f32⟩ : BufTy).Contents (Elt F)) (e : (⟨S2x262144, .i32⟩ : BufTy).Contents (Elt F))
    (w1 : (⟨S512x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) : (⟨S8192x8192, .f32⟩ : BufTy).Contents (Elt F) :=
  decode (agg128 (Host.dotGeneral dot_S8192x256_S256x128_S8192x128_1_0_0_1_n_n none (hidden (Host.dotGeneral dot_S8192x512_S512x256_S8192x256_1_0_0_1_n_n none x w1) e b1) w2) e b2)

end Cert.ReferenceIdeal.Spec

end
-- ==== Proof.KI.Bridge.lean ====
/-
  The idealized kernel program's result is the network of Spec.lean at its argument arrays.
  * At the boundaries of its items the buffers hold the specification's terms: after the first three stretches the tails, the
    heads and the edge weights; before the second product's region the rectified first layer, as `hidden` of what the first
    region left; before the decoder's region the embeddings, as `agg128` of what the second region left. Each is read off the
    stretch's operations, the buffers a stretch does not write carried along unchanged.
  * What a product's region leaves (the sum over the contracted axis, entry by entry) is the host's dot_general of the same
    two arrays; what the decoder's region leaves (the logistic function of z·zᵀ, entry by entry) is the host's
    1 / (1 + exp (−(z · transpose z))): the logistic function IS that expression on the extended reals, the literal 1.0 is 1,
    and transpose z at (k, s) is z at (s, k).
-/
import proofs.«106708_j53764400611652_1_alg».proof.Proof.KI.Whole
import proofs.«106708_j53764400611652_1_alg».proof.Proof.KI.Layer1Value
import proofs.«106708_j53764400611652_1_alg».proof.Proof.KI.Layer2Value
import proofs.«106708_j53764400611652_1_alg».proof.Proof.KI.DecodeValue
import proofs.«106708_j53764400611652_1_alg».proof.Proof.Spec

set_option maxRecDepth 16384

noncomputable section

namespace Cert.KernelIdeal.Bridge

open Cert.KernelIdeal Cert.KernelIdeal.Gen Cert.KernelIdeal.Whole
open Idealize.ShloMosaic Idealize.ShloMosaic.TcCoe Idealize.ShloMosaic.StableHlo Idealize.ShloMosaic.ValueIdx Idealize.SL.Sem

variable (m : (ℓ : Loc nD τ sig) → Buf (Elt Ideal) ℓ) (c : Dev nD)

/-! ## Buffers carried along unchanged -/

/-- A buffer the first three stretches do not write holds its launch contents when the first region is entered. -/
theorem launched3 (r : Ref sig .tc) (h0 : r ∉ hostOps0_W) (h1 : r ∉ hostOps0_1_W) (h2 : r ∉ hostOps0_2_W) :
    Y3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <| (StableHlo.after_of_writes_sub hostOps0 _ hostOps0_writes h0).trans rfl
/-- The first region changes only its output. -/
theorem keep4 (r : Ref sig .tc) (h : r ≠ main_v32) : Y4 m c (Proc.devRef .tc r) = Y3 m c (Proc.devRef .tc r) := Y4_else m c r h
/-- Nor do the two stretches after it write what they only read. -/
theorem keep6 (r : Ref sig .tc) (h3 : r ≠ main_v32) (h4 : r ∉ hostOps1_W) (h5 : r ∉ hostOps1_1_W) :
    Y6 m c (Proc.devRef .tc r) = Y3 m c (Proc.devRef .tc r) :=
  (StableHlo.after_of_writes_sub hostOps1_1 _ hostOps1_1_writes h5).trans <| (StableHlo.after_of_writes_sub hostOps1 _ hostOps1_writes h4).trans (Y4_else m c r h3)
theorem keep7 (r : Ref sig .tc) (h3 : r ≠ main_v32) (h4 : r ∉ hostOps1_W) (h5 : r ∉ hostOps1_1_W) (h6 : r ≠ main_v50) :
    Y7 m c (Proc.devRef .tc r) = Y3 m c (Proc.devRef .tc r) :=
  (Y7_else m c r h6).trans (keep6 m c r h3 h4 h5)

/-! ## The stretches' results -/

set_option maxHeartbeats 4000000 in
theorem tails3 : Y3 m c (Proc.devRef .tc main_v3) = Cert.ReferenceIdeal.Spec.tails (F := Ideal) (m ((c : Thread nD τ).loc main_arg1)) := by
  show StableHlo.after hostOps0_2 (StableHlo.after hostOps0_1 (StableHlo.after hostOps0 (Y0 m c))) (Proc.devRef .tc main_v3) = _
  after_results_simp
  rfl
set_option maxHeartbeats 4000000 in
theorem heads3 : Y3 m c (Proc.devRef .tc main_v6) = Cert.ReferenceIdeal.Spec.heads (F := Ideal) (m ((c : Thread nD τ).loc main_arg1)) := by
  show StableHlo.after hostOps0_2 (StableHlo.after hostOps0_1 (StableHlo.after hostOps0 (Y0 m c))) (Proc.devRef .tc main_v6) = _
  after_results_simp
  rfl
/-- The contents after the first and after the second stretch, under names that are not unfolded on sight. -/
def Z1 : Valuation τ sig (Elt Ideal) := Y1 m c
def Z2 : Valuation τ sig (Elt Ideal) := Y2 m c

/-- The second stretch writes none of what the third reads from the first. -/
theorem keep2 (r : Ref sig .tc) (h1 : r ∉ hostOps0_1_W) : Z2 m c (Proc.devRef .tc r) = Z1 m c (Proc.devRef .tc r) :=
  StableHlo.after_of_writes_sub hostOps0_1 _ hostOps0_1_writes h1

set_option maxHeartbeats 4000000 in
theorem tails1 : Z1 m c (Proc.devRef .tc main_v3) = Cert.ReferenceIdeal.Spec.tails (F := Ideal) (m ((c : Thread nD τ).loc main_arg1)) := by
  show StableHlo.after hostOps0 (Y0 m c) (Proc.devRef .tc main_v3) = _
  after_results_simp
  rfl
set_option maxHeartbeats 4000000 in
theorem heads1 : Z1 m c (Proc.devRef .tc main_v6) = Cert.ReferenceIdeal.Spec.heads (F := Ideal) (m ((c : Thread nD τ).loc main_arg1)) := by
  show StableHlo.after hostOps0 (Y0 m c) (Proc.devRef .tc main_v6) = _
  after_results_simp
  rfl
set_option maxHeartbeats 4000000 in
/-- The degrees, in the first stretch. -/
theorem degrees1 : Z1 m c (Proc.devRef .tc main_v10) = Cert.ReferenceIdeal.Spec.degrees (F := Ideal) (m ((c : Thread nD τ).loc main_arg1)) := by
  show StableHlo.after hostOps0 (Y0 m c) (Proc.devRef .tc main_v10) = _
  after_results_simp
  rfl
set_option maxHeartbeats 4000000 in
/-- Where the degree is positive, -/
theorem positive1 : Z1 m c (Proc.devRef .tc main_v12)
    = cmpf (F := Ideal) .ogt (Cert.ReferenceIdeal.Spec.degrees (F := Ideal) (m ((c : Thread nD τ).loc main_arg1)) : FVec Ideal S8192 .f32) (broadcastInDim S8192 ![] Facts₀.bcast_S_S8192 (constant (F := Ideal) S_ .f32 0x00000000#32)) := by
  show StableHlo.after hostOps0 (Y0 m c) (Proc.devRef .tc main_v12) = _
  after_results_simp
  rfl
set_option maxHeartbeats 4000000 in
/-- its inverse square root (of the degree kept away from zero), -/
theorem rsqrt1 : Z1 m c (Proc.devRef .tc main_v15)
    = Host.rsqrt (maximumf (Cert.ReferenceIdeal.Spec.degrees (F := Ideal) (m ((c : Thread nD τ).loc main_arg1)) : FVec Ideal S8192 .f32) (broadcastInDim S8192 ![] Facts₀.bcast_S_S8192 (constant (F := Ideal) S_ .f32 0x2B8CBCCC#32))) := by
  show StableHlo.after hostOps0 (Y0 m c) (Proc.devRef .tc main_v15) = _
  after_results_simp
  rfl
set_option maxHeartbeats 4000000 in
/-- and the zero for the other nodes. -/
theorem zero1 : Z1 m c (Proc.devRef .tc main_cst_3) = constant (F := Ideal) S_ .f32 0x00000000#32 := by
  show StableHlo.after hostOps0 (Y0 m c) (Proc.devRef .tc main_cst_3) = _
  after_results_simp

/-- Contents moved to a literal buffer's own type, or back from it, are the contents (the second stretch is a called
    function's body, whose operations carry these transports). -/
theorem at_v12 (X : (main_v12 : Ref sig .tc).ty.Contents (Elt Ideal)) : ((TRef.of main_v12 : TRef sig ⟨S8192, .i1⟩).ofBuf X) = X := rfl
theorem at_v15 (X : (main_v15 : Ref sig .tc).ty.Contents (Elt Ideal)) : ((TRef.of main_v15 : TRef sig ⟨S8192, .f32⟩).ofBuf X) = X := rfl
theorem at_w1 (X : (main_call0_v1 : Ref sig .tc).ty.Contents (Elt Ideal)) : ((TRef.of main_call0_v1 : TRef sig ⟨S8192, .f32⟩).ofBuf X) = X := rfl
theorem to_w1 (X : (⟨S8192, .f32⟩ : BufTy).Contents (Elt Ideal)) : ((TRef.of main_call0_v1 : TRef sig ⟨S8192, .f32⟩).toBuf X) = X := rfl
theorem at_w0 (X : (main_call0_v0 : Ref sig .tc).ty.Contents (Elt Ideal)) : ((TRef.of main_call0_v0 : TRef sig ⟨S_, .f32⟩).ofBuf X) = X := rfl
theorem to_w0 (X : (⟨S_, .f32⟩ : BufTy).Contents (Elt Ideal)) : ((TRef.of main_call0_v0 : TRef sig ⟨S_, .f32⟩).toBuf X) = X := rfl
theorem at_z (X : (main_cst_3 : Ref sig .tc).ty.Contents (Elt Ideal)) : ((TRef.of main_cst_3 : TRef sig ⟨S_, .f32⟩).ofBuf X) = X := rfl
theorem to_v16 (X : (⟨S8192, .f32⟩ : BufTy).Contents (Elt Ideal)) : ((TRef.of main_v16 : TRef sig ⟨S8192, .f32⟩).toBuf X) = X := rfl

set_option maxHeartbeats 4000000 in
/-- The masked inverse square root of the degrees: the second stretch's select. -/
theorem invSqrt2 : Z2 m c (Proc.devRef .tc main_v16) = Cert.ReferenceIdeal.Spec.invSqrt (F := Ideal) (m ((c : Thread nD τ).loc main_arg1)) := by
  show StableHlo.after hostOps0_1 (Z1 m c) (Proc.devRef .tc main_v16) = _
  after_results_simp
  rw [positive1, rsqrt1, zero1, to_v16, at_v12, at_v15, at_w1, to_w1, at_w0, to_w0, at_z]
  rfl
set_option maxHeartbeats 4000000 in
/-- The edge weights: the third stretch's gathers of it at the wrapped endpoints, multiplied. -/
theorem weights3 : Y3 m c (Proc.devRef .tc main_v31) = Cert.ReferenceIdeal.Spec.weights (F := Ideal) (m ((c : Thread nD τ).loc main_arg1)) := by
  show StableHlo.after hostOps0_2 (Z2 m c) (Proc.devRef .tc main_v31) = _
  after_results_simp
  rw [invSqrt2, keep2 m c main_v3 (by decide), keep2 m c main_v6 (by decide), tails1, heads1]
  rfl

set_option maxHeartbeats 4000000 in
/-- The rectified first layer, from what the first region left. -/
theorem hidden6 : Y6 m c (Proc.devRef .tc main_v49)
    = Cert.ReferenceIdeal.Spec.hidden (F := Ideal) (prod1 m c) (m ((c : Thread nD τ).loc main_arg1)) (m ((c : Thread nD τ).loc main_arg3)) := by
  show StableHlo.after hostOps1_1 (StableHlo.after hostOps1 (Y4 m c)) (Proc.devRef .tc main_v49) = _
  after_results_simp
  rw [Y4_out, keep4 m c main_v3 (by decide), keep4 m c main_v6 (by decide), keep4 m c main_v31 (by decide), keep4 m c main_arg3 (by decide),
    tails3, heads3, weights3, launched3 m c main_arg3 (by decide) (by decide) (by decide)]
  rfl

set_option maxHeartbeats 4000000 in
/-- The embeddings, from what the second region left. -/
theorem embed8 : Y8 m c (Proc.devRef .tc main_v66)
    = Cert.ReferenceIdeal.Spec.agg128 (F := Ideal) (prod2 m c) (m ((c : Thread nD τ).loc main_arg1)) (m ((c : Thread nD τ).loc main_arg5)) := by
  show StableHlo.after hostOps2 (Y7 m c) (Proc.devRef .tc main_v66) = _
  after_results_simp
  rw [Y7_out, keep7 m c main_v3 (by decide) (by decide) (by decide) (by decide), keep7 m c main_v6 (by decide) (by decide) (by decide) (by decide),
    keep7 m c main_v31 (by decide) (by decide) (by decide) (by decide), keep7 m c main_arg5 (by decide) (by decide) (by decide) (by decide),
    tails3, heads3, weights3, launched3 m c main_arg5 (by decide) (by decide) (by decide)]
  rfl

/-! ## The regions' results against the host's operations -/

theorem prod1_is (x : FVec Ideal S8192x512 .f32) (w : FVec Ideal S512x256 .f32) :
    Layer1Value.product x w = Host.dotGeneral (F := Ideal) (φ₁ := .f32) (φ₂ := .f32) Cert.ReferenceIdeal.dot_S8192x512_S512x256_S8192x256_1_0_0_1_n_n none x w := by
  funext i
  obtain ⟨r, j, rfl⟩ : ∃ (r : Fin 8192) (j : Fin 256), i = ix2 r j := ⟨i 0, i 1, eq_ix2 i⟩
  exact (Cert.Lib.PlainDot.dotGeneral_apply (M := 8192) (K := 512) (N := 256) none .single x w r j).symm

theorem prod2_is (x : FVec Ideal S8192x256 .f32) (w : FVec Ideal S256x128 .f32) :
    Layer2Value.product x w = Host.dotGeneral (F := Ideal) (φ₁ := .f32) (φ₂ := .f32) Cert.ReferenceIdeal.dot_S8192x256_S256x128_S8192x128_1_0_0_1_n_n none x w := by
  funext i
  obtain ⟨r, j, rfl⟩ : ∃ (r : Fin 8192) (j : Fin 128), i = ix2 r j := ⟨i 0, i 1, eq_ix2 i⟩
  exact (Cert.Lib.PlainDot.dotGeneral_apply (M := 8192) (K := 256) (N := 128) none .single x w r j).symm

/-- The word 0x3F800000 is the number 1. -/
theorem one_word : Ideal.ofBits .f32 0x3F800000#32 = 1 := by
  simp [Ideal.ofBits, Ideal.ieee, -EReal.coe_mul]; norm_num

theorem decoded_is (z : FVec Ideal S8192x128 .f32) : DecodeValue.decoded z = Cert.ReferenceIdeal.Spec.decode (F := Ideal) z := by
  funext i
  obtain ⟨r, s, rfl⟩ : ∃ (r : Fin 8192) (s : Fin 8192), i = ix2 r s := ⟨i 0, i 1, eq_ix2 i⟩
  have one : broadcastInDim Cert.ReferenceIdeal.S8192x8192 ![] Cert.ReferenceIdeal.Facts₀.bcast_S_S8192x8192 (constant (F := Ideal) Cert.ReferenceIdeal.S_ .f32 0x3F800000#32) (ix2 r s) = (1 : EReal) :=
    (broadcastInDim_apply _ _ _ (ix2 r s) (fun a => a.elim0) (fun a => a.elim0)).trans one_word
  have dot : FloatOps.dotGeneral (F := Ideal) Cert.ReferenceIdeal.dot_S8192x128_S128x8192_S8192x8192_1_0_0_1_n_n none .single z
        (transpose Cert.ReferenceIdeal.S128x8192 [1, 0] z Cert.ReferenceIdeal.Facts₀.transposes_S8192x128_S128x8192_1_0) (ix2 r s)
      = ∑ k : Fin 128, z (ix2 r k) * z (ix2 s k) := by
    refine (Cert.Lib.PlainDot.dotGeneral_apply (M := 8192) (K := 128) (N := 8192) none .single z _ r s).trans (Finset.sum_congr rfl fun k _ => ?_)
    refine congrArg (z (ix2 r k) * ·) ?_
    exact transpose_apply [1, 0] z _ (ix2 k s) (ix2 s k) (fun b => by match b with | ⟨0, _⟩ => rfl | ⟨1, _⟩ => rfl)
  show Ideal.logistic (∑ k : Fin 128, z (ix2 r k) * z (ix2 s k))
    = Ideal.div (broadcastInDim Cert.ReferenceIdeal.S8192x8192 ![] Cert.ReferenceIdeal.Facts₀.bcast_S_S8192x8192 (constant (F := Ideal) Cert.ReferenceIdeal.S_ .f32 0x3F800000#32) (ix2 r s))
        (broadcastInDim Cert.ReferenceIdeal.S8192x8192 ![] Cert.ReferenceIdeal.Facts₀.bcast_S_S8192x8192 (constant (F := Ideal) Cert.ReferenceIdeal.S_ .f32 0x3F800000#32) (ix2 r s)
          + Ideal.exp (-(FloatOps.dotGeneral (F := Ideal) Cert.ReferenceIdeal.dot_S8192x128_S128x8192_S8192x8192_1_0_0_1_n_n none .single z
              (transpose Cert.ReferenceIdeal.S128x8192 [1, 0] z Cert.ReferenceIdeal.Facts₀.transposes_S8192x128_S128x8192_1_0) (ix2 r s))))
  rw [one, dot]
  rfl

/-! ## The result -/

/-- The idealized kernel program's result is the network at its argument arrays. -/
theorem result_is : result m c
    = Cert.ReferenceIdeal.Spec.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have p1 : prod1 m c = Host.dotGeneral (F := Ideal) (φ₁ := .f32) (φ₂ := .f32) Cert.ReferenceIdeal.dot_S8192x512_S512x256_S8192x256_1_0_0_1_n_n none
      (m ((c : Thread nD τ).loc main_arg0) : FVec Ideal S8192x512 .f32) (m ((c : Thread nD τ).loc main_arg2) : FVec Ideal S512x256 .f32) := by
    unfold prod1
    rw [Layer1Value.left (U3 m) c]
    show Layer1Value.product (Y3 m c (Proc.devRef .tc main_arg0)) (Y3 m c (Proc.devRef .tc main_arg2)) = _
    rw [launched3 m c main_arg0 (by decide) (by decide) (by decide), launched3 m c main_arg2 (by decide) (by decide) (by decide)]
    exact prod1_is _ _
  have p2 : prod2 m c = Host.dotGeneral (F := Ideal) (φ₁ := .f32) (φ₂ := .f32) Cert.ReferenceIdeal.dot_S8192x256_S256x128_S8192x128_1_0_0_1_n_n none
      (Cert.ReferenceIdeal.Spec.hidden (F := Ideal) (prod1 m c) (m ((c : Thread nD τ).loc main_arg1)) (m ((c : Thread nD τ).loc main_arg3)) : FVec Ideal S8192x256 .f32)
      (m ((c : Thread nD τ).loc main_arg4) : FVec Ideal S256x128 .f32) := by
    unfold prod2
    rw [Layer2Value.left (U6 m) c]
    show Layer2Value.product (Y6 m c (Proc.devRef .tc main_v49)) (Y6 m c (Proc.devRef .tc main_arg4)) = _
    rw [hidden6, keep6 m c main_arg4 (by decide) (by decide) (by decide), launched3 m c main_arg4 (by decide) (by decide) (by decide)]
    exact prod2_is _ _
  unfold result
  rw [DecodeValue.left (U8 m) c]
  show DecodeValue.decoded (Y8 m c (Proc.devRef .tc main_v66)) = _
  rw [embed8, decoded_is, p2, p1]
  rfl

end Cert.KernelIdeal.Bridge

end
-- ==== Proof.RefIs.lean ====
/-
  The reference program's result, as its run states it (one composed term of the argument arrays), is the network of
  Spec.lean at those arrays: the reference computes the degrees and the edge weights once per layer, and the two copies are one
  term of the edge list.
-/
import proofs.«106708_j53764400611652_1_alg».proof.Proof.Spec
import proofs.«106708_j53764400611652_1_alg».proof.Proof.RefRunPatched

set_option maxRecDepth 16384

noncomputable section

namespace Cert.ReferenceIdeal.Spec

open Cert.ReferenceIdeal Idealize.ShloMosaic Idealize.ShloMosaic.TcCoe Idealize.SL.Sem

variable {F : FTy → Type} [FloatOps F]

set_option maxHeartbeats 4000000 in
theorem reference_is (m : (ℓ : Loc nD τ sig) → Buf (Elt F) ℓ) (c : Dev nD) :
    Cert.ReferenceIdeal.ValueP.res_main_v99 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v99 network decode agg128 hidden agg256 weights invSqrt degrees wrapped heads tails
  rfl

end Cert.ReferenceIdeal.Spec

end
-- ==== Proof.lean ====
/-
  The claim for a two-layer graph convolution with an inner-product decoder. The kernel program runs its three dense
  products as grids on the device — x·W1 and h·W2 by blocks of 1024 rows, sigmoid(z·zᵀ) by 1024×1024 tiles — and leaves the
  irregular part (self-loops, degrees, symmetric normalisation, gather-scale-scatter, biases, the rectifier) to host
  operations, the same ones the reference applies; the reference computes the products by the host's dot_general and the
  sigmoid as 1 / (1 + exp (−s)).
  * The kernel programs' frames: each of the word-level and the idealized program is run item by item (Whole.lean) — host
    stretches and the three regions, each region's grid by the pipeline rule over its body's triple — and every argument
    buffer is written by no item.
  * The reference's frame is its run with the result dropped.
  * Nothing was rewritten by the idealization, so `preserves` asks nothing.
  * On the extended reals both programs end at the network of Spec.lean: a product accumulated tile by tile from zero is the
    sum over the contracted axis that dot_general is (no finiteness is needed: the sums are the same sums, term for term), the
    changes of float format are the identity, and the logistic function is by definition 1 / (1 + exp (−s)) there.
-/
import proofs.«106708_j53764400611652_1_alg».proof.Defs
import proofs.«106708_j53764400611652_1_alg».proof.Proof.Gen.Kernel
import proofs.«106708_j53764400611652_1_alg».proof.Proof.Gen.KernelIdeal
import proofs.«106708_j53764400611652_1_alg».proof.Proof.Gen.ReferenceIdeal
import proofs.«106708_j53764400611652_1_alg».proof.Proof.Gen.Pre_finite_inputs
import proofs.«106708_j53764400611652_1_alg».proof.Proof.KB.Whole
import proofs.«106708_j53764400611652_1_alg».proof.Proof.KI.Whole
import proofs.«106708_j53764400611652_1_alg».proof.Proof.KI.Bridge
import proofs.«106708_j53764400611652_1_alg».proof.Proof.RefIs
import proofs.«106708_j53764400611652_1_alg».proof.Proof.RefRunPatched
import Idealize.ShloMosaic.Adequacy
import Idealize.ShloMosaic.Init

noncomputable section

namespace Cert.Proof

open Idealize.ShloMosaic Idealize.SL.Sem

theorem frame_kernel : Cert.frame_Kernel := fun m ρ _ =>
  (θ_run (Cert.Kernel.defs (F := Bits)) _ _).mono (fun _ h c => (h c).2) (Cert.Kernel.Whole.whole (F := Bits) m ρ)

theorem frame_ideal : Cert.frame_KernelIdeal := fun m ρ _ =>
  (θ_run (Cert.KernelIdeal.defs (F := Ideal)) _ _).mono (fun _ h c => (h c).2) (Cert.KernelIdeal.Whole.whole (F := Ideal) m ρ)

theorem frame_reference : Cert.frame_ReferenceIdeal := fun m ρ _ =>
  (θ_run (Cert.ReferenceIdeal.defs (F := Ideal)) _ _).mono (fun _ h c => (h c).2) (Cert.ReferenceIdeal.ValueP.run (F := Ideal) m ρ)

theorem preserves : Cert.preserves_Kernel_KernelIdeal := trivial

/-- Both idealized programs end at the network of the argument arrays, which agree. -/
theorem algebraic : Cert.algebraic_KernelIdeal_ReferenceIdeal := by
  intro m ρ m' ρ' _ hagree
  refine ⟨fun c => Cert.KernelIdeal.Whole.result (F := Ideal) m c, Cert.KernelIdeal.Whole.whole (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  rw [Cert.ReferenceIdeal.Spec.reference_is, (hagree c).1, (hagree c).2.1, (hagree c).2.2.1, (hagree c).2.2.2.1, (hagree c).2.2.2.2.1,
    (hagree c).2.2.2.2.2]
  exact (Cert.KernelIdeal.Bridge.result_is m c).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
